-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100000x3 : S_.BroadcastsInDim S100000x3 (![] : Fin 0 → Fin S100000x3.rank)
  reducesTo_S100000x3_S_d0_1 : S100000x3.ReducesTo [0, 1] S_
  bcast_S_S100000x5x3 : S_.BroadcastsInDim S100000x5x3 (![] : Fin 0 → Fin S100000x5x3.rank)
  reducesTo_S100000x5x3_S_d0_1_2 : S100000x5x3.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg12 : FVec F S5 .f32) (main_v48 : IVec S_ 1) (main_v49 : FVec F S128x5 .f32) (main_v50 : FVec F S128x5 .f32) : IVec S_ 1 :=
  let main_v51 : IVec S128x5 1 := cmpf .olt main_v49 main_v50
  let main_c_19 : IVec S_ 1 := constantI S_ 1 1#1
  let main_v52 : IVec S_ 1 := (fun x v => Host.reduce IntOp.andi x v reducesTo_S128x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  main_v58

def fn_part2 {F : FTy → Type} [FloatOps F] (main_arg8 : FVec F S1 .f32) (main_arg9 : FVec F S128x128 .f32) (main_arg10 : FVec F S128 .f32) (main_arg11 : FVec F S128x5 .f32) (main_arg12 : FVec F S5 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x5 .f32 := Host.absf main_arg11
  let main_cst_18 : FVec F S_ .f32 := constant S_ .f32 0x7F800000#32
  let main_v50 : FVec F S128x5 .f32 := broadcastInDim S128x5 ![] bcast_S_S128x5 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x5 .f32) (main_arg12 : FVec F S5 .f32) (main_v13 : IVec S_ 1) (main_v16 : IVec S100000x5x3 1) : IVec S_ 1 :=
  let main_c_5 : IVec S_ 1 := constantI S_ 1 1#1
  let main_v17 : IVec S_ 1 := (fun x v => Host.reduce IntOp.andi x v reducesTo_S100000x5x3_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : FVec F S1600000x128 .f32) (main_arg2 : FVec F S100000x3 .f32) (main_arg3 : FVec F S100000x5x3 .f32) (main_arg4 : IVec S2x1600000 32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x5 .f32) (main_arg12 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S100000x5x3 .f32 := Host.absf main_arg3
  let main_cst_4 : FVec F S_ .f32 := constant S_ .f32 0x7F800000#32
  let main_v15 : FVec F S100000x5x3 .f32 := broadcastInDim S100000x5x3 ![] bcast_S_S100000x5x3 main_cst_4
  let main_v16 : IVec S100000x5x3 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S6400x128 : Shape := ⟨2, ![6400, 128]⟩
abbrev S6400x3 : Shape := ⟨2, ![6400, 3]⟩
abbrev S1x128 : Shape := ⟨2, ![1, 128]⟩
abbrev S6400x1 : Shape := ⟨2, ![6400, 1]⟩
abbrev S1x1 : Shape := ⟨2, ![1, 1]⟩
abbrev S100000 : Shape := ⟨1, ![100000]⟩
abbrev S100000x1 : Shape := ⟨2, ![100000, 1]⟩
abbrev S2000x128 : Shape := ⟨2, ![2000, 128]⟩
abbrev S2000x5x3 : Shape := ⟨3, ![2000, 5, 3]⟩
abbrev S2000x3 : Shape := ⟨2, ![2000, 3]⟩
abbrev S2000x5 : Shape := ⟨2, ![2000, 5]⟩
abbrev S1x5 : Shape := ⟨2, ![1, 5]⟩
abbrev S2000x1 : Shape := ⟨2, ![2000, 1]⟩
abbrev S2000x1x3 : Shape := ⟨3, ![2000, 1, 3]⟩

abbrev nBuf : Space → Nat
  | .hbm => 55
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S100000x3, .f32⟩
  | .hbm, ⟨3, _⟩ => ⟨S100000x5x3, .f32⟩
  | .hbm, ⟨4, _⟩ => ⟨S2x1600000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x5, .f32⟩
  | .hbm, ⟨12, _⟩ => ⟨S5, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x3, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x3, .f32⟩
  | .hbm, ⟨35, _⟩ => ⟨S1600000x3, .f32⟩
  | .hbm, ⟨36, _⟩ => ⟨S1600000x3, .f32⟩
  | .hbm, ⟨37, _⟩ => ⟨S_, .f32⟩
  | .hbm, ⟨38, _⟩ => ⟨S100000x3, .f32⟩
  | .hbm, ⟨39, _⟩ => ⟨S1600000x1, .i32⟩
  | .hbm, ⟨40, _⟩ => ⟨S100000x3, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x3, .f32⟩
  | .hbm, ⟨52, _⟩ => ⟨S100000x3, .f32⟩
  | .hbm, ⟨53, _⟩ => ⟨S100000x3, .f32⟩
  | .hbm, ⟨54, _⟩ => ⟨S100000x3, .f32⟩
  | .local _ .vmem, ⟨0, _⟩ => ⟨S6400x128, .f32⟩
  | .local _ .vmem, ⟨1, _⟩ => ⟨S6400x128, .f32⟩
  | .local _ .vmem, ⟨2, _⟩ => ⟨S6400x3, .f32⟩
  | .local _ .vmem, ⟨3, _⟩ => ⟨S6400x3, .f32⟩
  | .local _ .vmem, ⟨4, _⟩ => ⟨S128x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S6400x3, .f32⟩
  | .local _ .vmem, ⟨9, _⟩ => ⟨S6400x3, .f32⟩
  | .local _ .vmem, ⟨10, _⟩ => ⟨S2000x128, .f32⟩
  | .local _ .vmem, ⟨11, _⟩ => ⟨S2000x128, .f32⟩
  | .local _ .vmem, ⟨12, _⟩ => ⟨S2000x5x3, .f32⟩
  | .local _ .vmem, ⟨13, _⟩ => ⟨S2000x5x3, .f32⟩
  | .local _ .vmem, ⟨14, _⟩ => ⟨S128x128, .f32⟩
  | .local _ .vmem, ⟨15, _⟩ => ⟨S128, .f32⟩
  | .local _ .vmem, ⟨16, _⟩ => ⟨S128x5, .f32⟩
  | .local _ .vmem, ⟨17, _⟩ => ⟨S5, .f32⟩
  | .local _ .vmem, ⟨18, _⟩ => ⟨S2000x3, .f32⟩
  | .local _ .vmem, ⟨19, _⟩ => ⟨S2000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x5x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  broadcasts_S6400x1_S6400x3 : S6400x1.Broadcasts S6400x3
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S2000x5 : S1x5.Broadcasts S2000x5
  inb_S2000x5x3_S2000x5x3_0_0_0 : ∀ a, (![0, 0, 0] : Fin 3 → Nat) a + S2000x5x3.size a ≤ S2000x5x3.size a
  h_S2000x5x3 : 0 < S2000x5x3.numel
  slices_S2000x5_o0_0_S2000x1 : S2000x5.Slices ![0, 0] S2000x1
  slices_S2000x5x3_o0_0_0_S2000x1x3 : S2000x5x3.Slices ![0, 0, 0] S2000x1x3
  shapeCasts_S2000x1x3_S2000x3 : S2000x1x3.ShapeCasts S2000x3
  broadcasts_S2000x1_S2000x3 : S2000x1.Broadcasts S2000x3
  slices_S2000x5_o0_1_S2000x1 : S2000x5.Slices ![0, 1] S2000x1
  slices_S2000x5x3_o0_1_0_S2000x1x3 : S2000x5x3.Slices ![0, 1, 0] S2000x1x3
  slices_S2000x5_o0_2_S2000x1 : S2000x5.Slices ![0, 2] S2000x1
  slices_S2000x5x3_o0_2_0_S2000x1x3 : S2000x5x3.Slices ![0, 2, 0] S2000x1x3
  slices_S2000x5_o0_3_S2000x1 : S2000x5.Slices ![0, 3] S2000x1
  slices_S2000x5x3_o0_3_0_S2000x1x3 : S2000x5x3.Slices ![0, 3, 0] S2000x1x3
  slices_S2000x5_o0_4_S2000x1 : S2000x5.Slices ![0, 4] S2000x1
  slices_S2000x5x3_o0_4_0_S2000x1x3 : S2000x5x3.Slices ![0, 4, 0] S2000x1x3
  inb_S2000x3_S2000x3_0_0 : ∀ a, (![0, 0] : Fin 2 → Nat) a + S2000x3.size a ≤ S2000x3.size a
  h_S2000x3 : 0 < S2000x3.numel
  gather_S100000x3_S1600000x1_S1600000x3_1_0_n_n_0_1_13_wf : GatherDims.WF S100000x3 S1600000x1 S1600000x3 [1] [0] [] [0] [] 1 ![1, 3]
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x5_S2000x5_1_0_0_1_n_n_wf : DotDims.WF S2000x128 S128x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S1600000x3.size a
  hwx0_1 : ∀ i : grid0.Coords, EltTy.bits .f32 = 32 ∨ (Rect.block (s := S1600000x3) S6400x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x3.size a ≤ S1600000x3.size a
  hwx0_6 : ∀ i : grid0.Coords, EltTy.bits .f32 = 32 ∨ (Rect.block (s := S1600000x3) S6400x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x5x3.size a ≤ S100000x5x3.size a
  hwx1_1 : ∀ i : grid1.Coords, EltTy.bits .f32 = 32 ∨ (Rect.block (s := S100000x5x3) S2000x5x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x5.size a ≤ S128x5.size a
  hwx1_4 : ∀ i : grid1.Coords, EltTy.bits .f32 = 32 ∨ (Rect.block (s := S128x5) S128x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5.size a ≤ S5.size a
  hwx1_5 : ∀ i : grid1.Coords, EltTy.bits .f32 = 32 ∨ (Rect.block (s := S5) S5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x3.size a ≤ S100000x3.size a
  hwx1_6 : ∀ i : grid1.Coords, EltTy.bits .f32 = 32 ∨ (Rect.block (s := S100000x3) S2000x3.size (cc1_transform_6 i) (hinb1_6 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x5_S2000x5_1_0_0_1_n_n : DotDims S2000x128 S128x5 S2000x5 where
  lhsContracting := [1]
  rhsContracting := [0]
  lhsNonContracting := [0]
  rhsNonContracting := [1]
  lhsBatch := []
  rhsBatch := []
  wf := dot_S2000x128_S128x5_S2000x5_1_0_0_1_n_n_wf

abbrev win0_0 : Pipeline.Window sig grid0 :=
  Pipeline.Window.ofSpec (Memref.whole main_arg1) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S6400x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x5x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x3.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x128 : Shape := ⟨2, ![1, 128]⟩
abbrev S1x1 : Shape := ⟨2, ![1, 1]⟩
abbrev S100000 : Shape := ⟨1, ![100000]⟩
abbrev S100000x1 : Shape := ⟨2, ![100000, 1]⟩
abbrev S100000x5 : Shape := ⟨2, ![100000, 5]⟩
abbrev S1x5 : Shape := ⟨2, ![1, 5]⟩
abbrev S100000x5x1 : Shape := ⟨3, ![100000, 5, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S100000x3, .f32⟩
  | .hbm, ⟨3, _⟩ => ⟨S100000x5x3, .f32⟩
  | .hbm, ⟨4, _⟩ => ⟨S2x1600000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x5, .f32⟩
  | .hbm, ⟨12, _⟩ => ⟨S5, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x3, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x3, .f32⟩
  | .hbm, ⟨35, _⟩ => ⟨S1600000x3, .f32⟩
  | .hbm, ⟨36, _⟩ => ⟨S1600000x128, .f32⟩
  | .hbm, ⟨37, _⟩ => ⟨S1x128, .f32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S1600000x128, .f32⟩
  | .hbm, ⟨49, _⟩ => ⟨S1600000x1, .f32⟩
  | .hbm, ⟨50, _⟩ => ⟨S1x1, .f32⟩
  | .hbm, ⟨51, _⟩ => ⟨S1600000x1, .f32⟩
  | .hbm, ⟨52, _⟩ => ⟨S1600000x1, .f32⟩
  | .hbm, ⟨53, _⟩ => ⟨S1600000x3, .f32⟩
  | .hbm, ⟨54, _⟩ => ⟨S1600000x3, .f32⟩
  | .hbm, ⟨55, _⟩ => ⟨S_, .f32⟩
  | .hbm, ⟨56, _⟩ => ⟨S100000x3, .f32⟩
  | .hbm, ⟨57, _⟩ => ⟨S1600000x1, .i32⟩
  | .hbm, ⟨58, _⟩ => ⟨S100000x3, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x3, .f32⟩
  | .hbm, ⟨70, _⟩ => ⟨S100000x3, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x5, .f32⟩
  | .hbm, ⟨85, _⟩ => ⟨S1x5, .f32⟩
  | .hbm, ⟨86, _⟩ => ⟨S100000x5, .f32⟩
  | .hbm, ⟨87, _⟩ => ⟨S100000x5, .f32⟩
  | .hbm, ⟨88, _⟩ => ⟨S100000x5x1, .f32⟩
  | .hbm, ⟨89, _⟩ => ⟨S100000x5x3, .f32⟩
  | .hbm, ⟨90, _⟩ => ⟨S100000x5x3, .f32⟩
  | .hbm, ⟨91, _⟩ => ⟨S_, .f32⟩
  | .hbm, ⟨92, _⟩ => ⟨S100000x3, .f32⟩
  | .hbm, ⟨93, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x5x1_S100000x5x3_0_1_2 : S100000x5x1.BroadcastsInDim S100000x5x3 (![0, 1, 2] : Fin 3 → Fin S100000x5x3.rank)
  reducesTo_S100000x5x3_S100000x3_d1 : S100000x5x3.ReducesTo [1] S100000x3
  h_S_ : 0 < S_.numel
  gather_S100000x3_S1600000x1_S1600000x3_1_0_n_n_0_1_13_wf : GatherDims.WF S100000x3 S1600000x1 S1600000x3 [1] [0] [] [0] [] 1 ![1, 3]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.KernelRun.lean ====
/-
  The kernel program's run with its buffers NAMED: every weakly fair execution of @main terminates without a fault,
  and every buffer that is not a pipeline's private staging ends at the contents the last segment boundary names —
  the fold of the three host stretches and the two regions' write-backs from the launch memory. The result buffer
  and the thirteen argument buffers are among them, so each ends at that fold read at its own reference.
-/
import proofs.«118999_j18580028522964_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, and in every
    final state each buffer outside the pipelines' staging holds what the last boundary's fold `W5` gives it. -/
theorem run_W5 : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result buffer and the argument buffers read off: the result at the last boundary's fold,
    each argument as launched. -/
theorem run_named : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v33 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_W5 m ρ)

end Cert.KernelIdeal.KernelRun

end
-- ==== Proof.HostStretch.lean ====
/-
  The kernel program's host stretches, read back.

  @main is three stretches of host operations around two pipelined regions. At each boundary every buffer holds a
  definite function of the launch memory: a stretch applies its operations in order, a region overwrites its output
  array and leaves everything else. Read at the buffers that matter:
  * before the first region, the relative positions `x[src] - x[dst]` and the destination indices are the same
    chains of operations the reference applies to its arguments, so they are the reference's own stages of the
    kernel's arguments; the argument arrays are still as launched;
  * between the regions, the scatter-mean of the first region's output by the destination indices is the reference's
    stage of the same name, once that output is known to be the reference's messages;
  * after the second region, the result is the sum of the second region's output and the scatter-mean;
  * no stretch and no region writes an argument array, so the second region still finds the arguments as launched.
-/
import proofs.«118999_j18580028522964_2_alg».proof.Proof.Gen.KernelIdeal.Frame
import proofs.«118999_j18580028522964_2_alg».proof.Proof.Gen.ReferenceIdeal.Read
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first stretch: the gathers, the difference, the destination indices -/

set_option maxHeartbeats 4000000 in
/-- Entering the first region, the buffer of relative positions holds `x[src] - x[dst]` of the launched `x` and
    edge list: the reference's stage of that name at the kernel's arguments (the same operations in the same order). -/
theorem rel_eq (c : Dev nD) :
    W1 m ρ c (Proc.devRef .tc main_v18)
      = Cert.ReferenceIdeal.Read.val_main_v18 (F := Ideal) (m ((c.tc : Thread nD τ).loc main_arg2)) (m ((c.tc : Thread nD τ).loc main_arg4)) := by
  show StableHlo.after hostOps0 (W0 m ρ c) (Proc.devRef .tc main_v18) = _
  after_results_simp
  rfl

set_option maxHeartbeats 4000000 in
/-- The destination indices (row 1 of the edge list, as a vector) after the first stretch. -/
theorem dst_eq (c : Dev nD) :
    W1 m ρ c (Proc.devRef .tc main_v3)
      = Cert.ReferenceIdeal.Read.val_main_v3 (F := Ideal) (m ((c.tc : Thread nD τ).loc main_arg4)) := by
  show StableHlo.after hostOps0 (W0 m ρ c) (Proc.devRef .tc main_v3) = _
  after_results_simp
  rfl

set_option maxHeartbeats 4000000 in
/-- The first stretch writes none of the first region's argument arrays. -/
theorem W1_arg1 (c : Dev nD) : W1 m ρ c (Proc.devRef .tc main_arg1) = m ((c.tc : Thread nD τ).loc main_arg1) := by
  show StableHlo.after hostOps0 (W0 m ρ c) (Proc.devRef .tc main_arg1) = _
  after_results_simp <;> rfl
set_option maxHeartbeats 4000000 in
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
set_option maxHeartbeats 4000000 in
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
set_option maxHeartbeats 4000000 in
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl
set_option maxHeartbeats 4000000 in
theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl

/-! ## The second stretch: the scatter-mean of the first region's output -/

/-- The first region leaves the destination indices alone. -/
theorem dst_kept (c : Dev nD) : W2 m ρ c (Proc.devRef .tc main_v3) = W1 m ρ c (Proc.devRef .tc main_v3) :=
  W2_of_ne m ρ c main_v3 (by decide)

set_option maxHeartbeats 4000000 in
/-- Entering the second region, the scatter-mean buffer holds the reference's scatter-mean stage, PROVIDED the first
    region's output array holds the reference's messages `msg` (`hmsg`) and the destination indices are the reference's
    (`hdst`): sums of the messages per destination node, divided by `max (count, 1)`, the same operations in the same
    order on both sides. -/
theorem geom_eq (c : Dev nD)
    (x1 : (⟨Cert.ReferenceIdeal.S1600000x128, .f32⟩ : BufTy).Contents (Elt Ideal))
    (x2 : (⟨Cert.ReferenceIdeal.S100000x3, .f32⟩ : BufTy).Contents (Elt Ideal))
    (x4 : (⟨Cert.ReferenceIdeal.S2x1600000, .i32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x1, .f32⟩ : BufTy).Contents (Elt Ideal))
    (x8 : (⟨Cert.ReferenceIdeal.S1, .f32⟩ : BufTy).Contents (Elt Ideal))
    (hdst : W2 m ρ c (Proc.devRef .tc main_v3) = Cert.ReferenceIdeal.Read.val_main_v3 (F := Ideal) x4)
    (hmsg : W2 m ρ c (Proc.devRef .tc main_v19) = Cert.ReferenceIdeal.Read.val_main_v29 (F := Ideal) x1 x2 x4 x5 x6 x7 x8) :
    W3 m ρ c (Proc.devRef .tc main_v31) = Cert.ReferenceIdeal.Read.val_main_v41 (F := Ideal) x1 x2 x4 x5 x6 x7 x8 := by
  show StableHlo.after hostOps1 (W2 m ρ c) (Proc.devRef .tc main_v31) = _
  after_results_simp
  rw [hdst, hmsg]
  rfl

/-! ## The arguments of the second region are still as launched -/

section SecondRegionArgs

set_option maxHeartbeats 4000000 in
theorem W3_arg0 (c : Dev nD) : W3 m ρ c (Proc.devRef .tc main_arg0) = m ((c.tc : Thread nD τ).loc main_arg0) := by
  show StableHlo.after hostOps1 (W2 m ρ c) (Proc.devRef .tc main_arg0) = _
  after_results_simp
  rw [W2_of_ne m ρ c main_arg0 (by decide)]
  show StableHlo.after hostOps0 (W0 m ρ c) (Proc.devRef .tc main_arg0) = _
  after_results_simp <;> rfl
set_option maxHeartbeats 4000000 in
theorem W3_arg3 (c : Dev nD) : W3 m ρ c (Proc.devRef .tc main_arg3) = m ((c.tc : Thread nD τ).loc main_arg3) := by
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp <;> rfl
set_option maxHeartbeats 4000000 in
theorem W3_arg9 (c : Dev nD) : W3 m ρ c (Proc.devRef .tc main_arg9) = m ((c.tc : Thread nD τ).loc main_arg9) := by
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp <;> rfl
set_option maxHeartbeats 4000000 in
theorem W3_arg10 (c : Dev nD) : W3 m ρ c (Proc.devRef .tc main_arg10) = m ((c.tc : Thread nD τ).loc main_arg10) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp <;> rfl
set_option maxHeartbeats 4000000 in
theorem W3_arg11 (c : Dev nD) : W3 m ρ c (Proc.devRef .tc main_arg11) = m ((c.tc : Thread nD τ).loc main_arg11) := by
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results_simp <;> rfl
set_option maxHeartbeats 4000000 in
theorem W3_arg12 (c : Dev nD) : W3 m ρ c (Proc.devRef .tc main_arg12) = m ((c.tc : Thread nD τ).loc main_arg12) := by
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results_simp <;> rfl

end SecondRegionArgs

/-! ## The last stretch: the sum -/

/-- The second region leaves the scatter-mean buffer alone. -/
theorem geom_kept (c : Dev nD) : W4 m ρ c (Proc.devRef .tc main_v31) = W3 m ρ c (Proc.devRef .tc main_v31) :=
  W4_of_ne m ρ c main_v31 (by decide)

/-- The result buffer ends at the second region's output plus the scatter-mean. -/
theorem result_sum (c : Dev nD) :
    W5 m ρ c (Proc.devRef .tc main_v33)
      = addf (F := Ideal) (s := S100000x3) (φ := .f32) (W4 m ρ c (Proc.devRef .tc main_v32)) (W4 m ρ c (Proc.devRef .tc main_v31)) := by
  show StableHlo.after hostOps2 (W4 m ρ c) (Proc.devRef .tc main_v33) = _
  after_results

end Cert.KernelIdeal.HostStretch

end
-- ==== Proof.Spec.lean ====
/-
  What the two programs compute, as functions of the argument arrays on the extended reals.

  Both programs apply a two-layer perceptron row by row: a row `x` of 128 entries goes to the hidden row
  `silu (x · W1 + b1)` (128 entries, `silu y = y * logistic y`), and the hidden row to `hidden · W2 + b2`.
  * Along the edges, the perceptron of an edge's 128 features has ONE output, and the edge's message is its relative
    position (three coordinates) times that output.
  * Along the nodes, the perceptron of a node's 128 features has FIVE outputs, the weights of the node's five velocity
    vectors, and the combined velocity is the weighted sum of the five, coordinate by coordinate.
  Everything is stated with the extended reals' own sum and product: no entry is assumed finite, since the two programs
  differ only in the order in which they lay the same sums and products out.
-/
import Idealize.ShloMosaic.PureOps.Ideal
import Idealize.ShloMosaic.Lib.ValueIdx

noncomputable section

open scoped BigOperators

namespace Cert.Spec

open Idealize.ShloMosaic Idealize.ShloMosaic.ValueIdx

/-- `silu y = y * logistic y`, with `logistic y = 1 / (1 + e^(-y))` (and its limits at the infinities). -/
def silu (y : EReal) : EReal := y * Ideal.logistic y

/-- The hidden row of row `p`, at `k`: `silu (∑ j, x (p, j) * W1 (j, k) + b1 k)`. -/
def hidden {R : ℕ} (x : FVec Ideal ⟨2, ![R, 128]⟩ .f32) (W1 : FVec Ideal ⟨2, ![128, 128]⟩ .f32)
    (b1 : FVec Ideal ⟨1, ![128]⟩ .f32) (p : Fin R) (k : Fin 128) : EReal :=
  silu ((∑ j : Fin 128, x (ix2 p j) * W1 (ix2 j k)) + b1 (ix1 k))

/-- The perceptron's output `n` for row `p`: `∑ k, hidden (p, k) * W2 (k, n) + b2 n`. -/
def mlp {R N : ℕ} (x : FVec Ideal ⟨2, ![R, 128]⟩ .f32) (W1 : FVec Ideal ⟨2, ![128, 128]⟩ .f32)
    (b1 : FVec Ideal ⟨1, ![128]⟩ .f32) (W2 : FVec Ideal ⟨2, ![128, N]⟩ .f32) (b2 : FVec Ideal ⟨1, ![N]⟩ .f32)
    (p : Fin R) (n : Fin N) : EReal :=
  (∑ k : Fin 128, hidden x W1 b1 p k * W2 (ix2 k n)) + b2 (ix1 n)

/-- The edge messages: edge `e`'s relative position, coordinate by coordinate, times the edge's one perceptron output. -/
def edgeMsg {E : ℕ} (feat : FVec Ideal ⟨2, ![E, 128]⟩ .f32) (rel : FVec Ideal ⟨2, ![E, 3]⟩ .f32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) : FVec Ideal ⟨2, ![E, 3]⟩ .f32 :=
  fun i => rel i * mlp feat W1 b1 W2 b2 (i 0) (0 : Fin 1)

/-- The combined velocities: node `p`'s five velocity vectors weighted by its five perceptron outputs and summed,
    coordinate by coordinate. -/
def vecGate {M : ℕ} (feat : FVec Ideal ⟨2, ![M, 128]⟩ .f32) (vel : FVec Ideal ⟨3, ![M, 5, 3]⟩ .f32)
    (W1 : FVec Ideal ⟨2, ![128, 128]⟩ .f32) (b1 : FVec Ideal ⟨1, ![128]⟩ .f32)
    (W2 : FVec Ideal ⟨2, ![128, 5]⟩ .f32) (b2 : FVec Ideal ⟨1, ![5]⟩ .f32) : FVec Ideal ⟨2, ![M, 3]⟩ .f32 :=
  fun i => ∑ k : Fin 5, mlp feat W1 b1 W2 b2 (i 0) k * vel (ix3 (i 0) k (i 1))

theorem edgeMsg_apply {E : ℕ} (feat : FVec Ideal ⟨2, ![E, 128]⟩ .f32) (rel : FVec Ideal ⟨2, ![E, 3]⟩ .f32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) (e : Fin E) (q : Fin 3) :
    edgeMsg feat rel W1 b1 W2 b2 (ix2 e q) = rel (ix2 e q) * mlp feat W1 b1 W2 b2 e (0 : Fin 1) := rfl

theorem vecGate_apply {M : ℕ} (feat : FVec Ideal ⟨2, ![M, 128]⟩ .f32) (vel : FVec Ideal ⟨3, ![M, 5, 3]⟩ .f32)
    (W1 : FVec Ideal ⟨2, ![128, 128]⟩ .f32) (b1 : FVec Ideal ⟨1, ![128]⟩ .f32)
    (W2 : FVec Ideal ⟨2, ![128, 5]⟩ .f32) (b2 : FVec Ideal ⟨1, ![5]⟩ .f32) (p : Fin M) (q : Fin 3) :
    vecGate feat vel W1 b1 W2 b2 (ix2 p q) = ∑ k : Fin 5, mlp feat W1 b1 W2 b2 p k * vel (ix3 p k q) := rfl

end Cert.Spec

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.EdgeBlock.lean ====
/-
  The edge region's body at one entry of a block.

  The body loads a block of 6400 edge-feature rows, the block of the same 6400 rows of relative positions, and the four
  weight arrays, and stores one block of 6400 message rows. At the entry (p, q) of that block the stored value is the
  relative position (p, q) times the perceptron's single output for feature row p: the first product (row p of the
  features against the first weight matrix, accumulated into zero) plus the first bias gives the pre-activation,
  y * logistic y the hidden row, the second product (against the one-column second weight matrix) plus the second bias
  the output, and the column of outputs is spread over the three coordinates before the entrywise product.
  Changes of number format are the identity on the extended reals, so the narrowed operands of the two products are the
  operands themselves.
-/
import proofs.«118999_j18580028522964_2_alg».proof.Proof.Gen.KernelIdeal.Frame
import proofs.«118999_j18580028522964_2_alg».proof.Proof.Spec
import proofs.«118999_j18580028522964_2_alg».proof.Proof.LibPlainDot
import proofs.«118999_j18580028522964_2_alg».proof.Proof.LibVectorReads
import proofs.«118999_j18580028522964_2_alg».proof.Proof.LibLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.EdgeValue

open Cert.KernelIdeal Cert.KernelIdeal.Gen

/-! ## The two products' dimension numbers are the plain ones -/

/-- First product: the left factor's row is the output's row. -/
theorem dotH_l0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
/-- First product: the left factor's column is the contracted coordinate. -/
theorem dotH_l1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
/-- First product: the right factor's row is the contracted coordinate. -/
theorem dotH_r0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
/-- First product: the right factor's column is the output's column. -/
theorem dotH_r1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- Second product: the left factor's row is the output's row. -/
theorem dotO_l0 (i : S6400x1.Idx) (q : dot_S6400x128_S128x1_S6400x1_1_0_0_1_n_n.contr.Idx) :
    (dot_S6400x128_S128x1_S6400x1_1_0_0_1_n_n.lhsIdx i q 0).val = (i 0).val := by
  unfold DotDims.lhsIdx
  rw [dif_neg (show ¬(0 : Fin S6400x128.rank) ∈ dot_S6400x128_S128x1_S6400x1_1_0_0_1_n_n.lhsBatch by decide), dif_pos (show (0 : Fin S6400x128.rank) ∈ dot_S6400x128_S128x1_S6400x1_1_0_0_1_n_n.lhsNonContracting by decide)]
  rfl
/-- Second product: the left factor's column is the contracted coordinate. -/
theorem dotO_l1 (i : S6400x1.Idx) (q : dot_S6400x128_S128x1_S6400x1_1_0_0_1_n_n.contr.Idx) :
    (dot_S6400x128_S128x1_S6400x1_1_0_0_1_n_n.lhsIdx i q 1).val = (q ⟨0, by decide⟩).val :=
  dot_S6400x128_S128x1_S6400x1_1_0_0_1_n_n.lhsIdx_val_of_single rfl i q
/-- Second product: the right factor's row is the contracted coordinate. -/
theorem dotO_r0 (i : S6400x1.Idx) (q : dot_S6400x128_S128x1_S6400x1_1_0_0_1_n_n.contr.Idx) :
    (dot_S6400x128_S128x1_S6400x1_1_0_0_1_n_n.rhsIdx i q 0).val = (q ⟨0, by decide⟩).val :=
  dot_S6400x128_S128x1_S6400x1_1_0_0_1_n_n.rhsIdx_val_of_single rfl i q
/-- Second product: the right factor's column is the output's column. -/
theorem dotO_r1 (i : S6400x1.Idx) (q : dot_S6400x128_S128x1_S6400x1_1_0_0_1_n_n.contr.Idx) :
    (dot_S6400x128_S128x1_S6400x1_1_0_0_1_n_n.rhsIdx i q 1).val = (i 1).val := by
  unfold DotDims.rhsIdx
  rw [dif_neg (show ¬(1 : Fin S128x1.rank) ∈ dot_S6400x128_S128x1_S6400x1_1_0_0_1_n_n.rhsBatch by decide), dif_pos (show (1 : Fin S128x1.rank) ∈ dot_S6400x128_S128x1_S6400x1_1_0_0_1_n_n.rhsNonContracting by decide)]
  rfl

/-! ## The two products read at an entry -/

/-- The first product into the zero accumulator at (p, k): row p of the left factor against column k of the right. -/
theorem dotH_apply {φ₁ φ₂ : FTy} (l : FVec Ideal S6400x128 φ₁) (r : FVec Ideal S128x128 φ₂) (p : Fin 6400) (k : Fin 128) :
    FloatOps.matmul dot_S6400x128_S128x128_S6400x128_1_0_0_1_n_n none l r (constant S6400x128 .f32 0x00000000#32) (ix2 p k)
      = ∑ j : Fin 128, l (ix2 p j) * r (ix2 j k) :=
  Cert.LibPlainDot.matmul_zero_plain dot_S6400x128_S128x128_S6400x128_1_0_0_1_n_n rfl rfl dotH_l0 dotH_l1 dotH_r0 dotH_r1 none l r p k

/-- The second product into the zero accumulator at (p, n): row p of the left factor against column n of the right. -/
theorem dotO_apply {φ₁ φ₂ : FTy} (l : FVec Ideal S6400x128 φ₁) (r : FVec Ideal S128x1 φ₂) (p : Fin 6400) (n : Fin 1) :
    FloatOps.matmul dot_S6400x128_S128x1_S6400x1_1_0_0_1_n_n none l r (constant S6400x1 .f32 0x00000000#32) (ix2 p n)
      = ∑ k : Fin 128, l (ix2 p k) * r (ix2 k n) :=
  Cert.LibPlainDot.matmul_zero_plain dot_S6400x128_S128x1_S6400x1_1_0_0_1_n_n rfl rfl dotO_l0 dotO_l1 dotO_r0 dotO_r1 none l r p n

/-! ## The body's arithmetic at an entry -/

/-- The logistic function of an array, at an entry, is the logistic function of the entry. -/
theorem logistic_apply {s : Shape} {φ : FTy} (a : FVec Ideal s φ) (i : s.Idx) : logistic a i = Ideal.logistic (a i) := rfl

/-- The pre-activation at (p, k): row p of the features against column k of the first weight matrix, plus the first
    bias at k (the bias vector is laid out as one row and repeated over the 6400 rows). -/
theorem pre_apply (v0 : Vec Ideal S6400x128 .f32) (v2 : Vec Ideal S128x128 .f32) (v5 : Vec Ideal S128 .f32)
    (p : Fin 6400) (k : Fin 128) :
    (addf (FloatOps.matmul dot_S6400x128_S128x128_S6400x128_1_0_0_1_n_n none (truncf .bf16 v0 bitsLt_bf16_f32)
            (truncf .bf16 v2 bitsLt_bf16_f32) (constant S6400x128 .f32 0x00000000#32))
        (broadcastTo S6400x128 (shapeCast S1x128 v5 shapeCasts_S128_S1x128) broadcasts_S1x128_S6400x128)
      : FVec Ideal S6400x128 .f32) (ix2 p k)
      = (∑ j : Fin 128, v0 (ix2 p j) * v2 (ix2 j k)) + v5 (ix1 k) := by
  rw [addf_apply, dotH_apply, Cert.LibVectorReads.bias_rows_apply]
  rfl

/-- The body's stored value at (p, q): the relative position (p, q) times the perceptron's output for feature row p. -/
theorem pay_apply (v0 : Vec Ideal S6400x128 .f32) (v2 : Vec Ideal S128x128 .f32) (v5 : Vec Ideal S128 .f32)
    (v12 : Vec Ideal S128x1 .f32) (v15 : Vec Ideal S1 .f32) (v19 : Vec Ideal S6400x3 .f32) (p : Fin 6400) (q : Fin 3) :
    k0_pay1 (F := Ideal) v0 v2 v5 v12 v15 v19 (ix2 p q)
      = v19 (ix2 p q) * Cert.Spec.mlp v0 v2 v5 v12 v15 p (0 : Fin 1) := by
  unfold k0_pay1
  simp only [matmul]
  rw [mulf_apply, shapeCast_self, Cert.LibLayout.broadcastTo_a1_ab_apply, addf_apply,
    Cert.LibLayout.broadcastTo_11_a1_apply, Cert.LibLayout.shapeCast_a_a1_apply, dotO_apply]
  unfold Cert.Spec.mlp
  refine congrArg (v19 (ix2 p q) * ·) (congrArg (· + v15 (ix1 (0 : Fin 1))) ?_)
  refine Finset.sum_congr rfl fun k _ => congrArg (· * v12 (ix2 k (0 : Fin 1))) ?_
  rw [truncf_apply, mulf_apply, logistic_apply, pre_apply]
  rfl

/-! ## The block the body stores, at an entry -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The body loads each of its six blocks whole and stores its result whole, so the stored block at (p, q) is the
    arithmetic above of the loaded blocks: the position block at (p, q) times the perceptron's output for row p of the
    feature block. -/
theorem out_apply (x0 : Vec Ideal S6400x128 .f32) (x1 : Vec Ideal S6400x3 .f32) (x2 : Vec Ideal S128x128 .f32)
    (x3 : Vec Ideal S128 .f32) (x4 : Vec Ideal S128x1 .f32) (x5 : Vec Ideal S1 .f32) (p : Fin 6400) (q : Fin 3) :
    out0_6 (F := Ideal) x0 x1 x2 x3 x4 x5 (ix2 p q) = x1 (ix2 p q) * Cert.Spec.mlp x0 x2 x3 x4 x5 p (0 : Fin 1) := by
  unfold out0_6
  rw [View.canon_unit_zero zero_offsets2]
  simp only [View.ld_unit_zero (S := S6400x128) zero_offsets2, View.ld_unit_zero (S := S128x128) zero_offsets2,
    View.ld_unit_zero (S := S128) zero_offsets1, View.ld_unit_zero (S := S128x1) zero_offsets2,
    View.ld_unit_zero (S := S1) zero_offsets1, View.ld_unit_zero (S := S6400x3) zero_offsets2]
  exact pay_apply x0 x2 x3 x4 x5 x1 p q

/-! ## The perceptron of a row only reads that row -/

/-- If row p of one feature array is row p' of another (of any numbers of rows), the perceptron's outputs for the two
    rows are the same. -/
theorem mlp_row_congr {R R' N : ℕ} (x : FVec Ideal ⟨2, ![R, 128]⟩ .f32) (x' : FVec Ideal ⟨2, ![R', 128]⟩ .f32)
    (W1 : FVec Ideal ⟨2, ![128, 128]⟩ .f32) (b1 : FVec Ideal ⟨1, ![128]⟩ .f32) (W2 : FVec Ideal ⟨2, ![128, N]⟩ .f32)
    (b2 : FVec Ideal ⟨1, ![N]⟩ .f32) (p : Fin R) (p' : Fin R') (n : Fin N)
    (h : ∀ j : Fin 128, x (ix2 p j) = x' (ix2 p' j)) :
    Cert.Spec.mlp x W1 b1 W2 b2 p n = Cert.Spec.mlp x' W1 b1 W2 b2 p' n := by
  unfold Cert.Spec.mlp Cert.Spec.hidden
  simp only [h]

/-! ## A stored block's entry as an entry of the message array -/

/-- Suppose the six loaded blocks sit in the whole arrays as follows: row p of the feature block is row e of the feature
    array, the position block at (p, q) is the position array at (e, q), and the four weight blocks are the weight
    arrays. Then the stored block at (p, q) is the edge message at (e, q). -/
theorem block_entry {E : ℕ} (x0 : Vec Ideal S6400x128 .f32) (x1 : Vec Ideal S6400x3 .f32) (x2 : Vec Ideal S128x128 .f32)
    (x3 : Vec Ideal S128 .f32) (x4 : Vec Ideal S128x1 .f32) (x5 : Vec Ideal S1 .f32)
    (feat : FVec Ideal ⟨2, ![E, 128]⟩ .f32) (rel : FVec Ideal ⟨2, ![E, 3]⟩ .f32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32)
    (p : Fin 6400) (q : Fin 3) (e : Fin E)
    (h0 : ∀ k : Fin 128, x0 (ix2 p k) = feat (ix2 e k)) (h1 : x1 (ix2 p q) = rel (ix2 e q))
    (h2 : x2 = W1) (h3 : x3 = b1) (h4 : x4 = W2) (h5 : x5 = b2) :
    out0_6 (F := Ideal) x0 x1 x2 x3 x4 x5 (ix2 p q) = Cert.Spec.edgeMsg feat rel W1 b1 W2 b2 (ix2 e q) := by
  subst h2 h3 h4 h5
  rw [out_apply, Cert.Spec.edgeMsg_apply, h1]
  exact congrArg (rel (ix2 e q) * ·) (mlp_row_congr x0 feat x2 x3 x4 x5 p e (0 : Fin 1) h0)

end Cert.KernelIdeal.EdgeValue

end
-- ==== Proof.EdgeValue.lean ====
/-
  The edge region's output array after all its grid points.

  The region has 250 points. Point t loads rows 6400 t … 6400 t + 6399 of the edge features and of the relative
  positions, and the four weight arrays whole, and writes rows 6400 t … 6400 t + 6399 of the messages. With the body's
  block read entry by entry, what point t writes back is the block at t of ONE function of the arrays as the region finds
  them: the edge messages. The 250 blocks cover the 1600000 rows (row r is in the block of point r / 6400), so the array
  ends holding the edge messages.
-/
import proofs.«118999_j18580028522964_2_alg».proof.Proof.EdgeBlock

noncomputable section

open scoped BigOperators
open Idealize.ShloMosaic Idealize.ShloMosaic.TcCoe Idealize.SL.Sem Idealize.ShloMosaic.ValueIdx
open Idealize.ShloMosaic.Pipeline (Dat)

namespace Cert.KernelIdeal.EdgeValue

open Cert.KernelIdeal Cert.KernelIdeal.Gen

/-! ## Where each window's block sits -/

/-- The block indices at point t, read off the printed index maps over the whole grid: the feature, position and
    message windows are at block row t, block column 0; the four weight windows are at block 0 on every axis. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row p of the feature block at point t is row 6400 t + p of the feature array. -/
theorem feat_blk (c : Dev nD) (t : Fin cfg0.N) (p : Fin 6400) (k : Fin 128) (e : Fin 1600000)
    (he : e.val = t.val * 6400 + p.val) :
    (iblk0 (F := Ideal) V c 0 t : Vec Ideal S6400x128 .f32) (ix2 p k) = V c main_arg1 (ix2 e k) := by
  obtain ⟨h0, h1, -⟩ := block_indices t
  unfold iblk0
  rw [View.read_apply]
  show V c main_arg1 _ = V c main_arg1 _
  congr 1
  funext a
  apply Fin.ext
  match a with
  | ⟨0, _⟩ => show win0_0.index t (0 : Fin 2) * 6400 + 1 * p.val = e.val; rw [h0, he]; omega
  | ⟨1, _⟩ => show win0_0.index t (1 : Fin 2) * 128 + 1 * k.val = k.val; rw [h1]; omega

/-- The position block at point t, at (p, q), is the position array at (6400 t + p, q). -/
theorem rel_blk (c : Dev nD) (t : Fin cfg0.N) (p : Fin 6400) (q : Fin 3) (e : Fin 1600000)
    (he : e.val = t.val * 6400 + p.val) :
    (iblk0 (F := Ideal) V c 1 t : Vec Ideal S6400x3 .f32) (ix2 p q) = V c main_v18 (ix2 e q) := by
  obtain ⟨-, -, h0, h1, -⟩ := block_indices t
  unfold iblk0
  rw [View.read_apply]
  show V c main_v18 _ = V c main_v18 _
  congr 1
  funext a
  apply Fin.ext
  match a with
  | ⟨0, _⟩ => show win0_1.index t (0 : Fin 2) * 6400 + 1 * p.val = e.val; rw [h0, he]; omega
  | ⟨1, _⟩ => show win0_1.index t (1 : Fin 2) * 3 + 1 * q.val = q.val; rw [h1]; omega

/-- The first weight matrix's block at every point is the whole matrix. -/
theorem w1_blk (c : Dev nD) (t : Fin cfg0.N) :
    (iblk0 (F := Ideal) V c 2 t : Vec Ideal S128x128 .f32) = V c main_arg5 := by
  obtain ⟨-, -, -, -, h0, h1, -⟩ := block_indices t
  funext y
  unfold iblk0
  rw [View.read_apply]
  show V c main_arg5 _ = V c main_arg5 y
  congr 1
  funext a
  apply Fin.ext
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- The first bias's block at every point is the whole vector. -/
theorem b1_blk (c : Dev nD) (t : Fin cfg0.N) :
    (iblk0 (F := Ideal) V c 3 t : Vec Ideal S128 .f32) = V c main_arg6 := by
  obtain ⟨-, -, -, -, -, -, h0, -⟩ := block_indices t
  funext y
  unfold iblk0
  rw [View.read_apply]
  show V c main_arg6 _ = V c main_arg6 y
  congr 1
  funext a
  apply Fin.ext
  match a with
  | ⟨0, _⟩ => show win0_3.index t (0 : Fin 1) * 128 + 1 * (y 0).val = (y 0).val; rw [h0]; omega

/-- The second weight matrix's block at every point is the whole matrix. -/
theorem w2_blk (c : Dev nD) (t : Fin cfg0.N) :
    (iblk0 (F := Ideal) V c 4 t : Vec Ideal S128x1 .f32) = V c main_arg7 := by
  obtain ⟨-, -, -, -, -, -, -, h0, h1, -⟩ := block_indices t
  funext y
  unfold iblk0
  rw [View.read_apply]
  show V c main_arg7 _ = V c main_arg7 y
  congr 1
  funext a
  apply Fin.ext
  match a with
  | ⟨0, _⟩ => show win0_4.index t (0 : Fin 2) * 128 + 1 * (y 0).val = (y 0).val; rw [h0]; omega
  | ⟨1, _⟩ => show win0_4.index t (1 : Fin 2) * 1 + 1 * (y 1).val = (y 1).val; rw [h1]; omega

/-- The second bias's block at every point is the whole vector. -/
theorem b2_blk (c : Dev nD) (t : Fin cfg0.N) :
    (iblk0 (F := Ideal) V c 5 t : Vec Ideal S1 .f32) = V c main_arg8 := by
  obtain ⟨-, -, -, -, -, -, -, -, -, h0, -⟩ := block_indices t
  funext y
  unfold iblk0
  rw [View.read_apply]
  show V c main_arg8 _ = V c main_arg8 y
  congr 1
  funext a
  apply Fin.ext
  match a with
  | ⟨0, _⟩ => show win0_5.index t (0 : Fin 1) * 1 + 1 * (y 0).val = (y 0).val; rw [h0]; omega

/-! ## What a point writes back -/

/-- What point t writes back is the block at t of the edge messages of the arrays as the region finds them. -/
theorem flushed_eq (c : Dev nD) (t : Fin cfg0.N) :
    (dat0 (F := Ideal) V c).flushed 6 t
      = ((cfg0.win 6).blk t).view.read (Elt Ideal)
          (Cert.Spec.edgeMsg (V c main_arg1) (V c main_v18) (V c main_arg5) (V c main_arg6) (V c main_arg7) (V c main_arg8)) := by
  show (cfg0.win 6).cut (grid0.coords t) ((dat0 V c).after 6 t) = _
  rw [after0_6]
  funext j
  have hj0 : (j 0).val < 6400 := (j 0).isLt
  have hj1 : (j 1).val < 3 := (j 1).isLt
  have ht : t.val < 250 := lt_of_lt_of_eq t.isLt N_0
  obtain ⟨-, -, -, -, -, -, -, -, -, -, h0, h1⟩ := block_indices t
  rw [View.read_apply]
  have hx : (cfg0.win 6).xinj (grid0.coords t) j = ix2 (⟨(j 0).val, hj0⟩ : Fin 6400) (⟨(j 1).val, hj1⟩ : Fin 3) :=
    funext fun a => by
      match a with
      | ⟨0, _⟩ => rfl
      | ⟨1, _⟩ => rfl
  have hy : ((cfg0.win 6).blk t).view.emb j
      = ix2 (⟨t.val * 6400 + (j 0).val, by omega⟩ : Fin 1600000) (⟨(j 1).val, hj1⟩ : Fin 3) := by
    funext a
    apply Fin.ext
    match a with
    | ⟨0, _⟩ => show win0_6.index t (0 : Fin 2) * 6400 + 1 * (j 0).val = t.val * 6400 + (j 0).val; rw [h0]; omega
    | ⟨1, _⟩ => show win0_6.index t (1 : Fin 2) * 3 + 1 * (j 1).val = (j 1).val; rw [h1]; omega
  show out0_6 (iblk0 V c 0 t) (iblk0 V c 1 t) (iblk0 V c 2 t) (iblk0 V c 3 t) (iblk0 V c 4 t) (iblk0 V c 5 t)
      ((cfg0.win 6).xinj (grid0.coords t) j) = _
  rw [hx, hy]
  exact block_entry _ _ _ _ _ _ _ _ _ _ _ _ _ _ _
    (fun k => feat_blk V c t _ k _ rfl) (rel_blk V c t _ _ _ rfl) (w1_blk V c t) (b1_blk V c t) (w2_blk V c t) (b2_blk V c t)

/-! ## The blocks cover the array -/

/-- A row-and-coordinate pair of the message array is in point t's block iff its row is among the block's 6400 rows
    (and its coordinate among the three). -/
theorem mem_blk (t : Fin cfg0.N) (i : S1600000x3.Idx) :
    i ∈ ((cfg0.win 6).blk t).view.set ↔ ∀ a : Fin 2, win0_6.index t a * S6400x3.size a ≤ (i a).val
      ∧ (i a).val < win0_6.index t a * S6400x3.size a + S6400x3.size a := by
  show i ∈ ((View.whole main_v19).slice (win0_6.rect t)).set ↔ _
  rw [View.set_slice_whole, Rect.mem_set_unit]
  exact Iff.rfl

/-- Row r of the message array is in the block of point r / 6400, and every point writes its block back. -/
theorem covered (i : S1600000x3.Idx) :
    ∃ t : Fin cfg0.N, (cfg0.win 6).flush t = true ∧ i ∈ ((cfg0.win 6).blk t).view.set := by
  have hi0 : (i 0).val < 1600000 := (i 0).isLt
  have hi1 : (i 1).val < 3 := (i 1).isLt
  have hN : cfg0.N = 250 := N_0
  have hlt : (i 0).val / 6400 < cfg0.N := by rw [hN]; omega
  obtain ⟨-, -, -, -, -, -, -, -, -, -, h0, h1⟩ := block_indices ⟨(i 0).val / 6400, hlt⟩
  refine ⟨⟨(i 0).val / 6400, hlt⟩, flush0_6 _, ?_⟩
  rw [mem_blk]
  intro a
  match a with
  | ⟨0, _⟩ =>
    show win0_6.index ⟨(i 0).val / 6400, hlt⟩ (0 : Fin 2) * 6400 ≤ (i 0).val
      ∧ (i 0).val < win0_6.index ⟨(i 0).val / 6400, hlt⟩ (0 : Fin 2) * 6400 + 6400
    rw [h0]
    show (i 0).val / 6400 * 6400 ≤ (i 0).val ∧ (i 0).val < (i 0).val / 6400 * 6400 + 6400
    omega
  | ⟨1, _⟩ =>
    show win0_6.index ⟨(i 0).val / 6400, hlt⟩ (1 : Fin 2) * 3 ≤ (i 1).val
      ∧ (i 1).val < win0_6.index ⟨(i 0).val / 6400, hlt⟩ (1 : Fin 2) * 3 + 3
    rw [h1]
    omega

/-! ## The array after the region -/

/-- The message array after all 250 points holds the edge messages of the arrays as the region finds them. -/
theorem arrAt_eq (V : (c : Dev nD) → (b : Ref sig .tc) → Buf (Elt Ideal) ((c : Thread nD τ).loc b)) (c : Dev nD) :
    (dat0 (F := Ideal) V c).arrAt 6 cfg0.N
      = Cert.Spec.edgeMsg (V c main_arg1) (V c main_v18) (V c main_arg5) (V c main_arg6) (V c main_arg7) (V c main_arg8) :=
  (dat0 (F := Ideal) V c).arrAt_eq_of_cover 6
    (Cert.Spec.edgeMsg (V c main_arg1) (V c main_v18) (V c main_arg5) (V c main_arg6) (V c main_arg7) (V c main_arg8))
    (fun t _ => flushed_eq V c t) covered

end Cert.KernelIdeal.EdgeValue

end
-- ==== Proof.LibPairReads.lean ====
/-
  Layout chains read at an index, for any extents: what a kernel writes when it sets every row of one matrix
  against every row of another without ever building the three-axis array of all pairs.

  Given `u : [K, C]` and `v : [N, C]`, the pair array `[K, N]` of column `o` is built from
    • column `o` of `u`, a `[K, 1]` slice, broadcast along the second axis:   entry `(k, n)` is `u (k, o)`;
    • column `o` of `v`, a `[N, 1]` slice, cast to `[N]`, cast to the row `[1, N]`, broadcast along the first
      axis:                                                                  entry `(k, n)` is `v (n, o)`.
  Also here: a `[K, 1, C]` array cast to `[K, C]` (a middle unit axis dropped), a column `[a, 1]` cast to the vector
  `[a]`, a column broadcast to `[a, b]`, and a vector laid as a row and repeated down the rows (a bias added to every
  row of a matrix). Each is one or two steps over the library's reads of a slice, a shape cast and a broadcast at
  an index given by coordinates.
-/
import Idealize.ShloMosaic.Lib.Pipeline.Value
import Idealize.ShloMosaic.Lib.ValueIdx
import Idealize.ShloMosaic.Lib.ValueLayout

namespace Cert.LibPairReads

open Idealize.ShloMosaic Idealize.ShloMosaic.ValueIdx

variable {α : Type}

/-- An `[a, 1, b]` array cast to `[a, b]` reads, at `(i, j)`, the operand at `(i, 0, j)`: the unit axis in the middle
    contributes nothing to the row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of a `[K, C]` matrix, repeated along the second axis of a `[K, N]` array: entry `(k, n)` is the
    matrix at `(k, o)`. -/
theorem column_spread_apply {K C N : ℕ} (o : ℕ) (u : (⟨2, ![K, C]⟩ : Shape).Idx → α)
    (hs : (⟨2, ![K, C]⟩ : Shape).Slices ![0, o] ⟨2, ![K, 1]⟩)
    (hb : (⟨2, ![K, 1]⟩ : Shape).Broadcasts ⟨2, ![K, N]⟩)
    (k : Fin K) (n : Fin N) (d : Fin C) (hd : d.val = o) :
    broadcastTo ⟨2, ![K, N]⟩ (extractStridedSlice ⟨2, ![K, 1]⟩ ![0, o] u hs) hb (ix2 k n) = u (ix2 k d) :=
  (broadcastTo_a1_ab_apply _ hb k n).trans
    (slice2_axis1_apply o u hs k (0 : Fin 1) d (by rw [hd]; rfl))

/-- Column `o` of an `[N, C]` matrix, laid as a row and repeated down the first axis of a `[K, N]` array: entry
    `(k, n)` is the matrix at `(n, o)`. -/
theorem column_as_row_spread_apply {K C N : ℕ} (o : ℕ) (v : (⟨2, ![N, C]⟩ : Shape).Idx → α)
    (hs : (⟨2, ![N, C]⟩ : Shape).Slices ![0, o] ⟨2, ![N, 1]⟩)
    (h1 : (⟨2, ![N, 1]⟩ : Shape).ShapeCasts ⟨1, ![N]⟩) (h2 : (⟨1, ![N]⟩ : Shape).ShapeCasts ⟨2, ![1, N]⟩)
    (hb : (⟨2, ![1, N]⟩ : Shape).Broadcasts ⟨2, ![K, N]⟩)
    (k : Fin K) (n : Fin N) (d : Fin C) (hd : d.val = o) :
    broadcastTo ⟨2, ![K, N]⟩
        (shapeCast ⟨2, ![1, N]⟩ (shapeCast ⟨1, ![N]⟩ (extractStridedSlice ⟨2, ![N, 1]⟩ ![0, o] v hs) h1) h2) hb (ix2 k n)
      = v (ix2 n d) :=
  (broadcastTo_1b_ab_apply _ hb k n).trans
    ((shapeCast_a_1a_apply _ h2 (0 : Fin 1) n).trans
      ((shapeCast_a1_a_apply _ h1 n).trans
        (slice2_axis1_apply o v hs n (0 : Fin 1) d (by rw [hd]; rfl))))

/-- A vector `[N]` laid as a row and repeated down the rows of an `[R, N]` array: entry `(p, n)` is the vector at
    `n`. -/
theorem row_spread_apply {R N : ℕ} (b : (⟨1, ![N]⟩ : Shape).Idx → α)
    (h1 : (⟨1, ![N]⟩ : Shape).ShapeCasts ⟨2, ![1, N]⟩) (hb : (⟨2, ![1, N]⟩ : Shape).Broadcasts ⟨2, ![R, N]⟩)
    (p : Fin R) (n : Fin N) :
    broadcastTo ⟨2, ![R, N]⟩ (shapeCast ⟨2, ![1, N]⟩ b h1) hb (ix2 p n) = b (ix1 n) :=
  (broadcastTo_1b_ab_apply _ hb p n).trans (shapeCast_a_1a_apply _ h1 (0 : Fin 1) n)

end Cert.LibPairReads
-- ==== Proof.GateBlock.lean ====
/-
  The node kernel's body at one entry of a block of 2000 rows.

  The body takes a block `x0` of 2000 rows of node features, the block `x1` of those rows' five velocity vectors, and the
  perceptron's weights `x2, x3, x4, x5` (first layer and bias, second layer and bias). It forms the 2000 × 5 matrix of
  perceptron outputs `alpha` — `silu (x0 · x2 + x3) · x4 + x5`, both products accumulated into the zero matrix — and then,
  for each of the five columns `k` of `alpha`, spreads that column along the three coordinates and multiplies it, entry by
  entry, with the `k`-th velocity vector of every row. The five products are added from the left:
  `(((a0 * v0 + a1 * v1) + a2 * v2) + a3 * v3) + a4 * v4`.

  Read at the entry `(p, q)` this is `∑ k : Fin 5, mlp x0 x2 x3 x4 x5 p k * x1 (p, k, q)`: the left-nested sum is the sum over
  `Fin 5` written out, and every entry of `alpha` is the specification's perceptron output of row `p`. Nothing is assumed
  finite: only the order in which the sum of five is written down matters, and it is the same on both sides.

  Row `p` of the output depends on row `p` of the features and on row `p` of the velocities only, so a block whose rows are
  rows `r` of whole arrays gives, at `(p, q)`, the whole arrays' combined velocity at `(r, q)` (`block_entry`).
-/
import proofs.«118999_j18580028522964_2_alg».proof.Proof.Gen.KernelIdeal.Frame
import proofs.«118999_j18580028522964_2_alg».proof.Proof.Spec
import proofs.«118999_j18580028522964_2_alg».proof.Proof.LibPlainDot
import proofs.«118999_j18580028522964_2_alg».proof.Proof.LibVectorReads
import proofs.«118999_j18580028522964_2_alg».proof.Proof.LibPairReads
import Idealize.ShloMosaic.Lib.ValueLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.GateValue

open Cert.KernelIdeal Cert.KernelIdeal.Gen

/-! ## The two matrix products' dimension numbers are the plain ones -/

/-- The first layer's product: 2000 × 128 by 128 × 128. -/
abbrev dotHid := dot_S2000x128_S128x128_S2000x128_1_0_0_1_n_n
/-- The second layer's product: 2000 × 128 by 128 × 5. -/
abbrev dotOut := dot_S2000x128_S128x5_S2000x5_1_0_0_1_n_n

/-- The left factor's row is the output's row … -/
theorem dotHid_l0 (i : S2000x128.Idx) (q : dotHid.contr.Idx) : (dotHid.lhsIdx i q 0).val = (i 0).val := by
  unfold DotDims.lhsIdx
  rw [dif_neg (show ¬(0 : Fin S2000x128.rank) ∈ dotHid.lhsBatch by decide), dif_pos (show (0 : Fin S2000x128.rank) ∈ dotHid.lhsNonContracting by decide)]
  rfl
/-- … its column the contracted coordinate; … -/
theorem dotHid_l1 (i : S2000x128.Idx) (q : dotHid.contr.Idx) : (dotHid.lhsIdx i q 1).val = (q ⟨0, by decide⟩).val :=
  dotHid.lhsIdx_val_of_single rfl i q
/-- … the right factor's row is the contracted coordinate … -/
theorem dotHid_r0 (i : S2000x128.Idx) (q : dotHid.contr.Idx) : (dotHid.rhsIdx i q 0).val = (q ⟨0, by decide⟩).val :=
  dotHid.rhsIdx_val_of_single rfl i q
/-- … and its column the output's column. -/
theorem dotHid_r1 (i : S2000x128.Idx) (q : dotHid.contr.Idx) : (dotHid.rhsIdx i q 1).val = (i 1).val := by
  unfold DotDims.rhsIdx
  rw [dif_neg (show ¬(1 : Fin S128x128.rank) ∈ dotHid.rhsBatch by decide), dif_pos (show (1 : Fin S128x128.rank) ∈ dotHid.rhsNonContracting by decide)]
  rfl

/-- The same four facts for the second layer's product. -/
theorem dotOut_l0 (i : S2000x5.Idx) (q : dotOut.contr.Idx) : (dotOut.lhsIdx i q 0).val = (i 0).val := by
  unfold DotDims.lhsIdx
  rw [dif_neg (show ¬(0 : Fin S2000x128.rank) ∈ dotOut.lhsBatch by decide), dif_pos (show (0 : Fin S2000x128.rank) ∈ dotOut.lhsNonContracting by decide)]
  rfl
theorem dotOut_l1 (i : S2000x5.Idx) (q : dotOut.contr.Idx) : (dotOut.lhsIdx i q 1).val = (q ⟨0, by decide⟩).val :=
  dotOut.lhsIdx_val_of_single rfl i q
theorem dotOut_r0 (i : S2000x5.Idx) (q : dotOut.contr.Idx) : (dotOut.rhsIdx i q 0).val = (q ⟨0, by decide⟩).val :=
  dotOut.rhsIdx_val_of_single rfl i q
theorem dotOut_r1 (i : S2000x5.Idx) (q : dotOut.contr.Idx) : (dotOut.rhsIdx i q 1).val = (i 1).val := by
  unfold DotDims.rhsIdx
  rw [dif_neg (show ¬(1 : Fin S128x5.rank) ∈ dotOut.rhsBatch by decide), dif_pos (show (1 : Fin S128x5.rank) ∈ dotOut.rhsNonContracting by decide)]
  rfl

/-! ## The perceptron inside the body -/

/-- The first layer before its activation, at `(p, k)`: row `p` of the features against column `k` of the weights, plus the
    bias at `k`. A change of number format is the identity on the extended reals, and the product is accumulated into
    the zero matrix. -/
theorem preact_read (x0 : Vec Ideal S2000x128 .f32) (x2 : Vec Ideal S128x128 .f32) (x3 : Vec Ideal S128 .f32)
    (p : Fin 2000) (k : Fin 128) :
    addf (matmul dotHid none (truncf .bf16 x0 bitsLt_bf16_f32) (truncf .bf16 x2 bitsLt_bf16_f32)
          (constant (F := Ideal) S2000x128 .f32 0x00000000#32))
        (broadcastTo S2000x128 (shapeCast S1x128 x3 shapeCasts_S128_S1x128) broadcasts_S1x128_S2000x128) (ix2 p k)
      = (∑ j : Fin 128, x0 (ix2 p j) * x2 (ix2 j k)) + x3 (ix1 k) :=
  congrArg₂ (· + ·)
    (Cert.LibPlainDot.matmul_zero_plain dotHid rfl rfl dotHid_l0 dotHid_l1 dotHid_r0 dotHid_r1 none _ _ p k)
    (Cert.LibVectorReads.bias_rows_apply x3 _ _ p k)

/-- The 2000 × 5 matrix of perceptron outputs the body forms, at `(p, n)`, is the specification's perceptron output `n`
    of row `p`: the hidden row is `y * logistic y` of the first layer, and the second layer is again a plain product
    into zero plus a bias. -/
theorem pay2_apply (x0 : Vec Ideal S2000x128 .f32) (x2 : Vec Ideal S128x128 .f32) (x3 : Vec Ideal S128 .f32)
    (x4 : Vec Ideal S128x5 .f32) (x5 : Vec Ideal S5 .f32) (p : Fin 2000) (n : Fin 5) :
    k1_pay2 (F := Ideal) x0 x2 x3 x4 x5 (ix2 p n) = Cert.Spec.mlp x0 x2 x3 x4 x5 p n := by
  unfold k1_pay2 Cert.Spec.mlp
  refine congrArg₂ (· + ·) ?_ (Cert.LibVectorReads.bias_rows_apply x5 _ _ p n)
  refine (Cert.LibPlainDot.matmul_zero_plain dotOut rfl rfl dotOut_l0 dotOut_l1 dotOut_r0 dotOut_r1 none _ _ p n).trans ?_
  refine Finset.sum_congr rfl fun k _ => congrArg (fun z => z * x4 (ix2 k n)) ?_
  unfold Cert.Spec.hidden Cert.Spec.silu
  rw [← preact_read x0 x2 x3 p k]
  rfl

/-! ## One of the five terms: a column of the outputs against one of the five velocity vectors -/

/-- Column `o` of the perceptron outputs, spread along the three coordinates, reads at `(p, q)` the output `(p, o)`. -/
theorem column_read (a : FVec Ideal S2000x5 .f32) (o : ℕ) (hs : S2000x5.Slices ![0, o] S2000x1)
    (hb : S2000x1.Broadcasts S2000x3) (p : Fin 2000) (q : Fin 3) (d : Fin 5) (hd : d.val = o) :
    broadcastTo S2000x3 (extractStridedSlice S2000x1 ![0, o] a hs) hb (ix2 p q) = a (ix2 p d) :=
  Cert.LibPairReads.column_spread_apply o a hs hb p q d hd

/-- The `o`-th of the five velocity vectors of every row — the slice `[2000, 1, 3]` at offsets `(0, o, 0)` with its unit
    axis dropped — reads at `(p, q)` the velocities at `(p, o, q)`. -/
theorem vector_read (v : Vec Ideal S2000x5x3 .f32) (o : ℕ) (hs : S2000x5x3.Slices ![0, o, 0] S2000x1x3)
    (hc : S2000x1x3.ShapeCasts S2000x3) (p : Fin 2000) (q : Fin 3) (d : Fin 5) (hd : d.val = o) :
    shapeCast S2000x3 (extractStridedSlice S2000x1x3 ![0, o, 0] v hs) hc (ix2 p q) = v (ix3 p d q) :=
  (Cert.LibPairReads.shapeCast_a1b_ab_apply _ hc p q).trans
    (slice3_axis1_apply o v hs p (0 : Fin 1) q d (by rw [hd]; rfl))

/-! ## The body's result at an entry -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at `(p, q)`: the five perceptron outputs of row `p` against the `q`-th
    coordinates of row `p`'s five velocity vectors, summed. The body's one store covers the whole block and its loads
    read whole blocks; its left-nested sum of five products is `Fin.sum_univ_five` read from right to left. -/
theorem out_apply (x0 : Vec Ideal S2000x128 .f32) (x1 : Vec Ideal S2000x5x3 .f32) (x2 : Vec Ideal S128x128 .f32)
    (x3 : Vec Ideal S128 .f32) (x4 : Vec Ideal S128x5 .f32) (x5 : Vec Ideal S5 .f32) (p : Fin 2000) (q : Fin 3) :
    out1_6 (F := Ideal) x0 x1 x2 x3 x4 x5 (ix2 p q)
      = ∑ k : Fin 5, Cert.Spec.mlp x0 x2 x3 x4 x5 p k * x1 (ix3 p k q) := by
  unfold out1_6
  rw [View.canon_unit_zero hz2]
  simp only [View.ld_unit_zero (S := S2000x128) hz2, View.ld_unit_zero (S := S128x128) hz2,
    View.ld_unit_zero (S := S128) hz1, View.ld_unit_zero (S := S128x5) hz2, View.ld_unit_zero (S := S5) hz1,
    View.ld_unit_zero (S := S2000x5x3) hz3]
  unfold k1_pay1 k1_pay3 k1_pay4 k1_pay5
  dsimp only
  rw [Fin.sum_univ_five]
  simp only [addf_apply, mulf_apply]
  refine congrArg₂ (· + ·) (congrArg₂ (· + ·) (congrArg₂ (· + ·) (congrArg₂ (· + ·) ?_ ?_) ?_) ?_) ?_
  · exact congrArg₂ (· * ·) ((column_read _ 0 _ _ p q 0 rfl).trans (pay2_apply x0 x2 x3 x4 x5 p 0))
      (vector_read x1 0 _ _ p q 0 rfl)
  · exact congrArg₂ (· * ·) ((column_read _ 1 _ _ p q 1 rfl).trans (pay2_apply x0 x2 x3 x4 x5 p 1))
      (vector_read x1 1 _ _ p q 1 rfl)
  · exact congrArg₂ (· * ·) ((column_read _ 2 _ _ p q 2 rfl).trans (pay2_apply x0 x2 x3 x4 x5 p 2))
      (vector_read x1 2 _ _ p q 2 rfl)
  · exact congrArg₂ (· * ·) ((column_read _ 3 _ _ p q 3 rfl).trans (pay2_apply x0 x2 x3 x4 x5 p 3))
      (vector_read x1 3 _ _ p q 3 rfl)
  · exact congrArg₂ (· * ·) ((column_read _ 4 _ _ p q 4 rfl).trans (pay2_apply x0 x2 x3 x4 x5 p 4))
      (vector_read x1 4 _ _ p q 4 rfl)

/-! ## A block against the whole arrays -/

/-- The perceptron's outputs for a row depend on that row of the features only: two feature arrays that agree on row
    `p` of one and row `p'` of the other give the same outputs there. -/
theorem mlp_row {R R' N : ℕ} (x : FVec Ideal ⟨2, ![R, 128]⟩ .f32) (x' : FVec Ideal ⟨2, ![R', 128]⟩ .f32)
    (W1 : FVec Ideal ⟨2, ![128, 128]⟩ .f32) (b1 : FVec Ideal ⟨1, ![128]⟩ .f32)
    (W2 : FVec Ideal ⟨2, ![128, N]⟩ .f32) (b2 : FVec Ideal ⟨1, ![N]⟩ .f32) (p : Fin R) (p' : Fin R')
    (h : ∀ j : Fin 128, x (ix2 p j) = x' (ix2 p' j)) (n : Fin N) :
    Cert.Spec.mlp x W1 b1 W2 b2 p n = Cert.Spec.mlp x' W1 b1 W2 b2 p' n := by
  unfold Cert.Spec.mlp Cert.Spec.hidden
  simp only [h]

/-- A block whose row `p` is row `r` of the whole feature array `A0` and of the whole velocity array `A1` gives, at
    `(p, q)`, the combined velocity of the whole arrays at `(r, q)`. -/
theorem block_entry (A0 : Vec Ideal S100000x128 .f32) (A1 : Vec Ideal S100000x5x3 .f32)
    (x0 : Vec Ideal S2000x128 .f32) (x1 : Vec Ideal S2000x5x3 .f32) (x2 : Vec Ideal S128x128 .f32)
    (x3 : Vec Ideal S128 .f32) (x4 : Vec Ideal S128x5 .f32) (x5 : Vec Ideal S5 .f32)
    (p : Fin 2000) (r : Fin 100000) (q : Fin 3)
    (h0 : ∀ j : Fin 128, x0 (ix2 p j) = A0 (ix2 r j))
    (h1 : ∀ k : Fin 5, x1 (ix3 p k q) = A1 (ix3 r k q)) :
    out1_6 (F := Ideal) x0 x1 x2 x3 x4 x5 (ix2 p q) = Cert.Spec.vecGate A0 A1 x2 x3 x4 x5 (ix2 r q) := by
  rw [out_apply, Cert.Spec.vecGate_apply]
  exact Finset.sum_congr rfl fun k _ => congrArg₂ (· * ·) (mlp_row x0 A0 x2 x3 x4 x5 p r h0 k) (h1 k)

end Cert.KernelIdeal.GateValue

end
-- ==== Proof.GateValue.lean ====
/-
  From the blocks to the whole array of combined velocities.

  The node kernel runs over 50 grid points. At point `t` it is handed rows `2000 t … 2000 t + 1999` of the node features
  (a block of 2000 × 128) and of the velocities (2000 × 5 × 3), together with the four weight arrays whole, and writes rows
  `2000 t … 2000 t + 1999` of the 100000 × 3 output. A block's coordinate in its array is, on every axis, the block's index
  times the block's size plus the coordinate inside the block; the block indices of every window are decided once over the
  50 points (`index_facts`): `t` on the row axis of the features, the velocities and the output, zero everywhere else.

  Row `p` of the body's result depends on row `p` of the feature block and of the velocity block only (GateBlock.lean), and
  those are rows `2000 t + p` of the whole arrays. So what point `t` writes back is block `t` of one function of the whole
  arrays, the specification's `vecGate` (`flushed_eq`). Row `r` of the output lies in the block of point `r / 2000`, so the
  50 blocks cover the array (`cover`), and the array ends holding `vecGate` of the arrays as the region found them
  (`arrAt_eq`).
-/
import proofs.«118999_j18580028522964_2_alg».proof.Proof.GateBlock
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen

variable (V : (c : Dev nD) → (b : Ref sig .tc) → Buf (Elt Ideal) ((c : Thread nD τ).loc b))

/-! ## Where each window's block sits -/

/-- The block indices over the 50 grid points: the features', the velocities' and the output's blocks move down the rows
    with the point; the four weight arrays are one block each, at index zero. -/
theorem index_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of the feature block at point `t` is row `2000 t + p` of the feature array. -/
theorem feat_block (c : Dev nD) (t : Fin cfg1.N) (p : Fin 2000) (j : Fin 128) (r : Fin 100000)
    (hr : r.val = t.val * 2000 + p.val) :
    (iblk1 V c 0 t : Vec Ideal S2000x128 .f32) (ix2 p j) = (V c main_arg0 : Vec Ideal S100000x128 .f32) (ix2 r j) := by
  obtain ⟨e0, e1, -⟩ := index_facts t
  show (V c main_arg0 : Vec Ideal S100000x128 .f32) (((cfg1.win 0).blk t).view.emb (ix2 p j)) = _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * j.val = j.val; rw [e1]; omega

/-- Row `p` of the velocity block at point `t` is row `2000 t + p` of the velocity array, vector by vector and coordinate
    by coordinate. -/
theorem vel_block (c : Dev nD) (t : Fin cfg1.N) (p : Fin 2000) (k : Fin 5) (q : Fin 3) (r : Fin 100000)
    (hr : r.val = t.val * 2000 + p.val) :
    (iblk1 V c 1 t : Vec Ideal S2000x5x3 .f32) (ix3 p k q) = (V c main_arg3 : Vec Ideal S100000x5x3 .f32) (ix3 r k q) := by
  obtain ⟨-, -, e0, e1, e2, -⟩ := index_facts t
  show (V c main_arg3 : Vec Ideal S100000x5x3 .f32) (((cfg1.win 1).blk t).view.emb (ix3 p k q)) = _
  refine congrArg _ (funext fun a => Fin.ext ?_)
  match a with
  | ⟨0, _⟩ => show win1_1.index t (0 : Fin 3) * 2000 + 1 * p.val = r.val; rw [e0, hr]; omega
  | ⟨1, _⟩ => show win1_1.index t (1 : Fin 3) * 5 + 1 * k.val = k.val; rw [e1]; omega
  | ⟨2, _⟩ => show win1_1.index t (2 : Fin 3) * 3 + 1 * q.val = q.val; rw [e2]; omega

/-- The first layer's weights are handed whole at every point … -/
theorem w1_block (c : Dev nD) (t : Fin cfg1.N) :
    (iblk1 V c 2 t : Vec Ideal S128x128 .f32) = (V c main_arg9 : Vec Ideal S128x128 .f32) := by
  obtain ⟨-, -, -, -, -, e0, e1, -⟩ := index_facts t
  funext y
  show (V c main_arg9 : Vec Ideal S128x128 .f32) (((cfg1.win 2).blk t).view.emb y) = V c main_arg9 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- … and so are its bias, … -/
theorem b1_block (c : Dev nD) (t : Fin cfg1.N) :
    (iblk1 V c 3 t : Vec Ideal S128 .f32) = (V c main_arg10 : Vec Ideal S128 .f32) := by
  obtain ⟨-, -, -, -, -, -, -, e0, -⟩ := index_facts t
  funext y
  show (V c main_arg10 : Vec Ideal S128 .f32) (((cfg1.win 3).blk t).view.emb y) = V c main_arg10 y
  refine congrArg _ (funext fun a => Fin.ext ?_)
  match a with
  | ⟨0, _⟩ => show win1_3.index t (0 : Fin 1) * 128 + 1 * (y 0).val = (y 0).val; rw [e0]; omega

/-- … the second layer's weights … -/
theorem w2_block (c : Dev nD) (t : Fin cfg1.N) :
    (iblk1 V c 4 t : Vec Ideal S128x5 .f32) = (V c main_arg11 : Vec Ideal S128x5 .f32) := by
  obtain ⟨-, -, -, -, -, -, -, -, e0, e1, -⟩ := index_facts t
  funext y
  show (V c main_arg11 : Vec Ideal S128x5 .f32) (((cfg1.win 4).blk t).view.emb y) = V c main_arg11 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 5 + 1 * (y 1).val = (y 1).val; rw [e1]; omega

/-- … and the second layer's bias. -/
theorem b2_block (c : Dev nD) (t : Fin cfg1.N) :
    (iblk1 V c 5 t : Vec Ideal S5 .f32) = (V c main_arg12 : Vec Ideal S5 .f32) := by
  obtain ⟨-, -, -, -, -, -, -, -, -, -, e0, -⟩ := index_facts t
  funext y
  show (V c main_arg12 : Vec Ideal S5 .f32) (((cfg1.win 5).blk t).view.emb y) = V c main_arg12 y
  refine congrArg _ (funext fun a => Fin.ext ?_)
  match a with
  | ⟨0, _⟩ => show win1_5.index t (0 : Fin 1) * 5 + 1 * (y 0).val = (y 0).val; rw [e0]; omega

/-! ## What a point writes back -/

/-- What point `t` writes back is block `t` — rows `2000 t … 2000 t + 1999` — of the combined velocities of the whole
    arrays: entry `(p, q)` of the body's result is `vecGate` at `(2000 t + p, q)`, since it depends on rows `p` of the two
    row blocks only and those are rows `2000 t + p` of the arrays. -/
theorem flushed_eq (c : Dev nD) (t : Fin cfg1.N) :
    (dat1 (F := Ideal) V c).flushed 6 t = ((cfg1.win 6).blk t).view.read (Elt Ideal)
      (Cert.Spec.vecGate (V c main_arg0) (V c main_arg3) (V c main_arg9) (V c main_arg10) (V c main_arg11) (V c main_arg12)) := by
  have ht : t.val < 50 := lt_of_lt_of_eq t.isLt N_1
  obtain ⟨-, -, -, -, -, -, -, -, -, -, -, e0, e1⟩ := index_facts t
  show (cfg1.win 6).cut (grid1.coords t) ((dat1 V c).after 6 t) = _
  rw [after1_6, w1_block V c t, b1_block V c t, w2_block V c t, b2_block V c t]
  refine funext fun (y : S2000x3.Idx) => ?_
  obtain ⟨p, q, rfl⟩ : ∃ (p : Fin 2000) (q : Fin 3), y = ix2 p q := ⟨y 0, y 1, eq_ix2 y⟩
  have hp : p.val < 2000 := p.isLt
  have hi : ((cfg1.win 6).blk t).view.emb (ix2 p q) = (ix2 (⟨t.val * 2000 + p.val, by omega⟩ : Fin 100000) q : S100000x3.Idx) := by
    funext a; apply Fin.ext
    match a with
    | ⟨0, _⟩ => show win1_6.index t (0 : Fin 2) * 2000 + 1 * p.val = t.val * 2000 + p.val; rw [e0]; omega
    | ⟨1, _⟩ => show win1_6.index t (1 : Fin 2) * 3 + 1 * q.val = q.val; rw [e1]; omega
  show out1_6 (F := Ideal) (iblk1 V c 0 t) (iblk1 V c 1 t) (V c main_arg9) (V c main_arg10) (V c main_arg11) (V c main_arg12) (ix2 p q)
    = Cert.Spec.vecGate (V c main_arg0) (V c main_arg3) (V c main_arg9) (V c main_arg10) (V c main_arg11) (V c main_arg12)
        (((cfg1.win 6).blk t).view.emb (ix2 p q))
  rw [hi]
  exact block_entry _ _ _ _ _ _ _ _ p ⟨t.val * 2000 + p.val, by omega⟩ q
    (fun j => feat_block V c t p j _ rfl) (fun k => vel_block V c t p k q _ rfl)

/-! ## The blocks cover the array -/

/-- An index of the output is in point `t`'s block iff each coordinate is in the block's range on its axis. -/
theorem mem_blk (t : Fin cfg1.N) (i : S100000x3.Idx) :
    i ∈ ((cfg1.win 6).blk t).view.set ↔ ∀ a : Fin 2, win1_6.index t a * S2000x3.size a ≤ (i a).val
      ∧ (i a).val < win1_6.index t a * S2000x3.size a + S2000x3.size a := by
  show i ∈ ((View.whole main_v32).slice (win1_6.rect t)).set ↔ _
  rw [View.set_slice_whole, Rect.mem_set_unit]
  exact Iff.rfl

/-- Every index of the output is in the block of some point, and every point writes its block back: row `r` is in
    the block of point `r / 2000`, since `2000 (r / 2000) ≤ r < 2000 (r / 2000) + 2000`, and the three coordinates are one
    block. -/
theorem cover (i : S100000x3.Idx) :
    ∃ t : Fin cfg1.N, (cfg1.win 6).flush t = true ∧ i ∈ ((cfg1.win 6).blk t).view.set := by
  have hi0 : (i 0).val < 100000 := (i 0).isLt
  have hi1 : (i 1).val < 3 := (i 1).isLt
  have hlt : (i 0).val / 2000 < cfg1.N := lt_of_lt_of_eq (show (i 0).val / 2000 < 50 by omega) N_1.symm
  obtain ⟨t, ht⟩ : ∃ t : Fin cfg1.N, t.val = (i 0).val / 2000 := ⟨⟨_, hlt⟩, rfl⟩
  obtain ⟨-, -, -, -, -, -, -, -, -, -, -, e0, e1⟩ := index_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 3 ≤ (i 1).val ∧ (i 1).val < win1_6.index t (1 : Fin 2) * 3 + 3
    rw [e1]; omega

/-! ## The array after the region -/

/-- After the last point the output array holds the combined velocities of the arrays as the region found them: every
    point writes a block of that one function, and the blocks cover the array. -/
theorem arrAt_eq (c : Dev nD) :
    (dat1 (F := Ideal) V c).arrAt 6 cfg1.N
      = Cert.Spec.vecGate (V c main_arg0) (V c main_arg3) (V c main_arg9) (V c main_arg10) (V c main_arg11) (V c main_arg12) :=
  (dat1 (F := Ideal) V c).arrAt_eq_of_cover 6 _ (fun t _ => flushed_eq V c t) cover

end Cert.KernelIdeal.GateValue

end
-- ==== Proof.RefBridge.lean ====
/-
  The reference program's two row-by-row stages, read as functions of the argument arrays on the extended reals.

  * The edge messages (`msg_eq`): relative position times the edge perceptron's one output. The stages are a product
    of the 128 features with the first weight matrix, the bias row broadcast along the edges, the activation
    `y * (1 / (1 + e^(-y)))`, a product of the hidden row with the one-column second weight matrix, its one-entry bias,
    the broadcast of that column along the three coordinates, and the product with the relative position.
  * The combined velocities (`gate_eq`): the same perceptron along the nodes with five outputs, each output broadcast
    along the three coordinates, multiplied with the node's five velocity vectors, and summed over the five from the
    zero literal.

  Each stage is read at an index from its operands at an index; the composed index maps are identified with the
  coordinate constructors, and the sums and products then stand in the specification's order, so nothing beyond
  `0 + s = s`, the value of the literals one and zero, and the definition of the logistic function is used.
-/
import proofs.«118999_j18580028522964_2_alg».proof.Proof.Gen.ReferenceIdeal.Read
import proofs.«118999_j18580028522964_2_alg».proof.Proof.Spec
import Idealize.ShloMosaic.Lib.Pipeline.Value
import Idealize.ShloMosaic.Lib.IdealHost

noncomputable section
open Idealize.ShloMosaic Idealize.ShloMosaic.TcCoe Idealize.SL.Sem
open scoped BigOperators

namespace Cert.ReferenceIdeal.RefBridge
open Cert.ReferenceIdeal Cert.ReferenceIdeal.Read Idealize.ShloMosaic.ValueIdx

/-! ## The edge perceptron -/

/-- The first layer before the activation, for edge `e` at hidden unit `k`: the row of features times column `k`
    of the first weight matrix, plus the bias entry `k` (the bias row is broadcast along the edges). -/
theorem pre_edge (x1 : (⟨S1600000x128, .f32⟩ : BufTy).Contents (Elt Ideal)) (x5 : (⟨S128x128, .f32⟩ : BufTy).Contents (Elt Ideal))
    (x6 : (⟨S128, .f32⟩ : BufTy).Contents (Elt Ideal)) (e : Fin 1600000) (k : Fin 128) :
    val_main_v22 (F := Ideal) x1 x5 x6 (ix2 e k) = (∑ j : Fin 128, x1 (ix2 e j) * x5 (ix2 j k)) + x6 (ix1 k) := by
  rw [val_main_v22_apply, val_main_v19_apply, val_main_v21_apply, val_main_v20_apply, Ideal.addf_def]
  have el : ∀ j : Fin 128, lidx_main_v19 (ix2 e k) j = ix2 e j := fun j => funext fun a => Fin.ext (by
    match a with | ⟨0, _⟩ => rfl | ⟨1, _⟩ => rfl)
  have er : ∀ j : Fin 128, ridx_main_v19 (ix2 e k) j = ix2 j k := fun j => funext fun a => Fin.ext (by
    match a with | ⟨0, _⟩ => rfl | ⟨1, _⟩ => rfl)
  have eb : idx_main_v20 (idx_main_v21 (ix2 e k)) = ix1 k := funext fun a => Fin.ext (by
    match a with | ⟨0, _⟩ => rfl)
  rw [eb]
  exact congrArg (· + x6 (ix1 k)) (Finset.sum_congr rfl fun j _ => by rw [el, er])

/-- The hidden row of edge `e` at `k`. The reference spells the activation `y * (1 / (1 + e^(-y)))` with the float
    literal one, which denotes the extended real one; at the ideal instance that quotient is the logistic function by
    definition, so the product is `silu y`. -/
theorem hid_edge (x1 : (⟨S1600000x128, .f32⟩ : BufTy).Contents (Elt Ideal)) (x5 : (⟨S128x128, .f32⟩ : BufTy).Contents (Elt Ideal))
    (x6 : (⟨S128, .f32⟩ : BufTy).Contents (Elt Ideal)) (e : Fin 1600000) (k : Fin 128) :
    val_main_v23 (F := Ideal) x1 x5 x6 (ix2 e k) = Cert.Spec.hidden x1 x5 x6 e k := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, pre_edge]
  simp only [Ideal.mulf_def, Ideal.hostDivf_def, Ideal.addf_def, Ideal.hostUnary_exp_def, Ideal.hostNegf_def,
    Ideal.negf_def, Ideal.ofBits_def, Ideal.ofBits_one_f32]
  rfl

/-- The edge perceptron's output `n` for edge `e`: the hidden row times column `n` of the second weight matrix, plus
    the bias entry `n`. -/
theorem mlp_edge (x1 : (⟨S1600000x128, .f32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (e : Fin 1600000) (n : Fin 1) :
    val_main_v27 (F := Ideal) x1 x5 x6 x7 x8 (ix2 e n) = Cert.Spec.mlp x1 x5 x6 x7 x8 e n := by
  rw [val_main_v27_apply, val_main_v24_apply, val_main_v26_apply, val_main_v25_apply, Ideal.addf_def]
  have el : ∀ j : Fin 128, lidx_main_v24 (ix2 e n) j = ix2 e j := fun j => funext fun a => Fin.ext (by
    match a with | ⟨0, _⟩ => rfl | ⟨1, _⟩ => rfl)
  have er : ∀ j : Fin 128, ridx_main_v24 (ix2 e n) j = ix2 j n := fun j => funext fun a => Fin.ext (by
    match a with | ⟨0, _⟩ => rfl | ⟨1, _⟩ => rfl)
  have eb : idx_main_v25 (idx_main_v26 (ix2 e n)) = ix1 n := funext fun a => Fin.ext (by
    match a with | ⟨0, _⟩ => exact (Nat.lt_one_iff.mp n.isLt).symm)
  rw [eb]
  unfold Cert.Spec.mlp
  exact congrArg (· + x8 (ix1 n)) (Finset.sum_congr rfl fun j _ => by rw [el, er, hid_edge])

/-- The reference's edge messages are the specification's: relative position times the perceptron's one output,
    the output column being broadcast along the three coordinates. -/
theorem msg_eq (x1 : (⟨S1600000x128, .f32⟩ : BufTy).Contents (Elt Ideal)) (x2 : (⟨S100000x3, .f32⟩ : BufTy).Contents (Elt Ideal))
    (x4 : (⟨S2x1600000, .i32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) :
    val_main_v29 (F := Ideal) x1 x2 x4 x5 x6 x7 x8
      = Cert.Spec.edgeMsg x1 (val_main_v18 (F := Ideal) x2 x4) x5 x6 x7 x8 := by
  funext i
  obtain ⟨e, q, rfl⟩ : ∃ (e : Fin 1600000) (q : Fin 3), i = ix2 e q := ⟨i 0, i 1, eq_ix2 i⟩
  rw [val_main_v29_apply, val_main_v28_apply, Ideal.mulf_def, Cert.Spec.edgeMsg_apply]
  have eo : idx_main_v28 (ix2 e q) = ix2 e (0 : Fin 1) := funext fun a => Fin.ext (by
    match a with | ⟨0, _⟩ => rfl | ⟨1, _⟩ => rfl)
  rw [eo, mlp_edge]

/-! ## The node perceptron and the weighted sum of the velocities -/

/-- The first layer before the activation, for node `p` at hidden unit `k`. -/
theorem pre_node (x0 : (⟨S100000x128, .f32⟩ : BufTy).Contents (Elt Ideal)) (x9 : (⟨S128x128, .f32⟩ : BufTy).Contents (Elt Ideal))
    (x10 : (⟨S128, .f32⟩ : BufTy).Contents (Elt Ideal)) (p : Fin 100000) (k : Fin 128) :
    val_main_v45 (F := Ideal) x0 x9 x10 (ix2 p k) = (∑ j : Fin 128, x0 (ix2 p j) * x9 (ix2 j k)) + x10 (ix1 k) := by
  rw [val_main_v45_apply, val_main_v42_apply, val_main_v44_apply, val_main_v43_apply, Ideal.addf_def]
  have el : ∀ j : Fin 128, lidx_main_v42 (ix2 p k) j = ix2 p j := fun j => funext fun a => Fin.ext (by
    match a with | ⟨0, _⟩ => rfl | ⟨1, _⟩ => rfl)
  have er : ∀ j : Fin 128, ridx_main_v42 (ix2 p k) j = ix2 j k := fun j => funext fun a => Fin.ext (by
    match a with | ⟨0, _⟩ => rfl | ⟨1, _⟩ => rfl)
  have eb : idx_main_v43 (idx_main_v44 (ix2 p k)) = ix1 k := funext fun a => Fin.ext (by
    match a with | ⟨0, _⟩ => rfl)
  rw [eb]
  exact congrArg (· + x10 (ix1 k)) (Finset.sum_congr rfl fun j _ => by rw [el, er])

/-- The hidden row of node `p` at `k`: `y * (1 / (1 + e^(-y)))` is `silu y`, as along the edges. -/
theorem hid_node (x0 : (⟨S100000x128, .f32⟩ : BufTy).Contents (Elt Ideal)) (x9 : (⟨S128x128, .f32⟩ : BufTy).Contents (Elt Ideal))
    (x10 : (⟨S128, .f32⟩ : BufTy).Contents (Elt Ideal)) (p : Fin 100000) (k : Fin 128) :
    val_main_v46 (F := Ideal) x0 x9 x10 (ix2 p k) = Cert.Spec.hidden x0 x9 x10 p k := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, pre_node]
  simp only [Ideal.mulf_def, Ideal.hostDivf_def, Ideal.addf_def, Ideal.hostUnary_exp_def, Ideal.hostNegf_def,
    Ideal.negf_def, Ideal.ofBits_def, Ideal.ofBits_one_f32]
  rfl

/-- The node perceptron's output `n` (one of five) for node `p`. -/
theorem mlp_node (x0 : (⟨S100000x128, .f32⟩ : BufTy).Contents (Elt Ideal)) (x9 : (⟨S128x128, .f32⟩ : BufTy).Contents (Elt Ideal))
    (x10 : (⟨S128, .f32⟩ : BufTy).Contents (Elt Ideal)) (x11 : (⟨S128x5, .f32⟩ : BufTy).Contents (Elt Ideal))
    (x12 : (⟨S5, .f32⟩ : BufTy).Contents (Elt Ideal)) (p : Fin 100000) (n : Fin 5) :
    val_main_v50 (F := Ideal) x0 x9 x10 x11 x12 (ix2 p n) = Cert.Spec.mlp x0 x9 x10 x11 x12 p n := by
  rw [val_main_v50_apply, val_main_v47_apply, val_main_v49_apply, val_main_v48_apply, Ideal.addf_def]
  have el : ∀ j : Fin 128, lidx_main_v47 (ix2 p n) j = ix2 p j := fun j => funext fun a => Fin.ext (by
    match a with | ⟨0, _⟩ => rfl | ⟨1, _⟩ => rfl)
  have er : ∀ j : Fin 128, ridx_main_v47 (ix2 p n) j = ix2 j n := fun j => funext fun a => Fin.ext (by
    match a with | ⟨0, _⟩ => rfl | ⟨1, _⟩ => rfl)
  have eb : idx_main_v48 (idx_main_v49 (ix2 p n)) = ix1 n := funext fun a => Fin.ext (by
    match a with | ⟨0, _⟩ => rfl)
  rw [eb]
  unfold Cert.Spec.mlp
  exact congrArg (· + x12 (ix1 n)) (Finset.sum_congr rfl fun j _ => by rw [el, er, hid_node])

/-- The reference's combined velocities are the specification's: the sum, from the zero literal, over the five
    velocity vectors of a node of weight times coordinate; the zero literal denotes zero and `0 + s = s`. -/
theorem gate_eq (x0 : (⟨S100000x128, .f32⟩ : BufTy).Contents (Elt Ideal)) (x3 : (⟨S100000x5x3, .f32⟩ : BufTy).Contents (Elt Ideal))
    (x9 : (⟨S128x128, .f32⟩ : BufTy).Contents (Elt Ideal)) (x10 : (⟨S128, .f32⟩ : BufTy).Contents (Elt Ideal))
    (x11 : (⟨S128x5, .f32⟩ : BufTy).Contents (Elt Ideal)) (x12 : (⟨S5, .f32⟩ : BufTy).Contents (Elt Ideal)) :
    val_main_v54 (F := Ideal) x0 x3 x9 x10 x11 x12 = Cert.Spec.vecGate x0 x3 x9 x10 x11 x12 := by
  funext i
  obtain ⟨p, q, rfl⟩ : ∃ (p : Fin 100000) (q : Fin 3), i = ix2 p q := ⟨i 0, i 1, eq_ix2 i⟩
  rw [val_main_v54_apply, val_main_cst_6_apply, Ideal.ofBits_def, Ideal.ofBits_zero_f32, zero_add,
    Cert.Spec.vecGate_apply]
  refine Finset.sum_congr rfl fun k _ => ?_
  rw [val_main_v53_apply, val_main_v52_apply, val_main_v51_apply, Ideal.mulf_def]
  have ew : idx_main_v51 (idx_main_v52 (idx_main_v54 (ix2 p q) k)) = ix2 p k := funext fun a => Fin.ext (by
    match a with | ⟨0, _⟩ => rfl | ⟨1, _⟩ => rfl)
  have ev : idx_main_v54 (ix2 p q) k = ix3 p k q := funext fun a => Fin.ext (by
    match a with | ⟨0, _⟩ => rfl | ⟨1, _⟩ => rfl | ⟨2, _⟩ => rfl)
  rw [ew, ev, mlp_node]

end Cert.ReferenceIdeal.RefBridge
end
-- ==== Proof.KernelValue.lean ====
/-
  What the kernel program leaves in its result buffer, as a function of its launched arguments.

  The first region's output array is the edge messages `rel * w` (block by block, hence as a whole array), with
  `rel` the relative positions the first host stretch computed; that is the reference's message stage at the same
  arguments. The second host stretch turns the messages into their scatter-mean exactly as the reference does. The
  second region's output array is the combined velocities, the reference's weighted-sum stage. The last host
  operation adds the two, and so does the reference: the result buffer ends at the reference's result stage of the
  kernel's own arguments.
-/
import proofs.«118999_j18580028522964_2_alg».proof.Proof.HostStretch
import proofs.«118999_j18580028522964_2_alg».proof.Proof.EdgeValue
import proofs.«118999_j18580028522964_2_alg».proof.Proof.GateValue
import proofs.«118999_j18580028522964_2_alg».proof.Proof.RefBridge

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostStretch

variable (m : (ℓ : Loc nD τ sig) → Buf (Elt Ideal) ℓ) (ρ : Dev nD → PrngReg)

/-- The first region's output array holds the reference's messages of the launched arguments. -/
theorem msg_eq (c : Dev nD) :
    W2 m ρ c (Proc.devRef .tc main_v19)
      = Cert.ReferenceIdeal.Read.val_main_v29 (F := Ideal) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  refine (W2_arr m ρ c 6).trans ?_
  refine (Cert.KernelIdeal.EdgeValue.arrAt_eq (V1 m ρ) c).trans ?_
  have e1 : V1 m ρ c main_arg1 = m ((c.tc : Thread nD τ).loc main_arg1) := W1_arg1 m ρ c
  have e5 : V1 m ρ c main_arg5 = m ((c.tc : Thread nD τ).loc main_arg5) := W1_arg5 m ρ c
  have e6 : V1 m ρ c main_arg6 = m ((c.tc : Thread nD τ).loc main_arg6) := W1_arg6 m ρ c
  have e7 : V1 m ρ c main_arg7 = m ((c.tc : Thread nD τ).loc main_arg7) := W1_arg7 m ρ c
  have e8 : V1 m ρ c main_arg8 = m ((c.tc : Thread nD τ).loc main_arg8) := W1_arg8 m ρ c
  have e18 : V1 m ρ c main_v18 = Cert.ReferenceIdeal.Read.val_main_v18 (F := Ideal) (m ((c.tc : Thread nD τ).loc main_arg2)) (m ((c.tc : Thread nD τ).loc main_arg4)) :=
    rel_eq m ρ c
  rw [e1, e5, e6, e7, e8, e18]
  exact (Cert.ReferenceIdeal.RefBridge.msg_eq _ _ _ _ _ _ _).symm

/-- The second region's output array holds the reference's combined velocities of the launched arguments. -/
theorem gate_eq (c : Dev nD) :
    W4 m ρ c (Proc.devRef .tc main_v32)
      = Cert.ReferenceIdeal.Read.val_main_v54 (F := Ideal) (m ((c.tc : Thread nD τ).loc main_arg0)) (m ((c.tc : Thread nD τ).loc main_arg3))
          (m ((c.tc : Thread nD τ).loc main_arg9)) (m ((c.tc : Thread nD τ).loc main_arg10)) (m ((c.tc : Thread nD τ).loc main_arg11))
          (m ((c.tc : Thread nD τ).loc main_arg12)) := by
  refine (W4_arr m ρ c 6).trans ?_
  refine (Cert.KernelIdeal.GateValue.arrAt_eq (V3 m ρ) c).trans ?_
  have e0 : V3 m ρ c main_arg0 = m ((c.tc : Thread nD τ).loc main_arg0) := W3_arg0 m ρ c
  have e3 : V3 m ρ c main_arg3 = m ((c.tc : Thread nD τ).loc main_arg3) := W3_arg3 m ρ c
  have e9 : V3 m ρ c main_arg9 = m ((c.tc : Thread nD τ).loc main_arg9) := W3_arg9 m ρ c
  have e10 : V3 m ρ c main_arg10 = m ((c.tc : Thread nD τ).loc main_arg10) := W3_arg10 m ρ c
  have e11 : V3 m ρ c main_arg11 = m ((c.tc : Thread nD τ).loc main_arg11) := W3_arg11 m ρ c
  have e12 : V3 m ρ c main_arg12 = m ((c.tc : Thread nD τ).loc main_arg12) := W3_arg12 m ρ c
  rw [e0, e3, e9, e10, e11, e12]
  exact (Cert.ReferenceIdeal.RefBridge.gate_eq _ _ _ _ _ _).symm

/-- The kernel program's result buffer ends at the reference's result stage of the launched arguments. -/
theorem result_eq (c : Dev nD) :
    W5 m ρ c (Proc.devRef .tc main_v33)
      = Cert.ReferenceIdeal.Read.val_main_v55 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  refine (result_sum m ρ c).trans ?_
  rw [gate_eq  m ρ c, geom_kept m ρ c,
    geom_eq m ρ c _ _ _ _ _ _ _ ((dst_kept m ρ c).trans (dst_eq m ρ c)) (msg_eq  m ρ c)]
  rfl

end Cert.KernelIdeal.KernelValue

end
-- ==== Proof.lean ====
/-
  The kernel computes, for a graph of 100000 nodes and 1600000 edges, a velocity update per node: a weighted sum of the
  node's five velocity vectors, the weights a two-layer perceptron of the node's features, plus the mean over the
  node's incoming edges of (relative position × a two-layer perceptron of the edge's features). The two perceptrons
  run as pipelined regions over blocks of rows (with the matrix products fed in a narrower float format); the gathers,
  the scatter-mean and the final sum are host operations around them. The reference computes the same in plain
  array operations.

  On the extended reals the two programs are the same function of the arguments. A change of float format is the
  identity there; a matrix product into a zero accumulator and a `dot_general` are the same finite sum; the kernel's
  logistic function is by definition the reference's `1 / (1 + e^(-y))`; the kernel's left-nested sum of five products
  is the reference's sum over the middle axis from zero (addition is commutative and associative on the extended reals,
  so no entry need be finite); and the host operations outside the regions are the reference's own, in the same order.
  Hence both runs end with the result buffer at ONE function of the arguments — the reference's result stage
  (`Read.val_main_v55`) — which is the algebraic claim; the three frame claims are the generated frames (the
  reference's being its run with the result dropped), and the ideal pass rewrote nothing.
-/
import proofs.«118999_j18580028522964_2_alg».proof.Defs
import proofs.«118999_j18580028522964_2_alg».proof.Proof.Gen.Kernel
import proofs.«118999_j18580028522964_2_alg».proof.Proof.Gen.Kernel.Skeleton
import proofs.«118999_j18580028522964_2_alg».proof.Proof.Gen.Kernel.Launch
import proofs.«118999_j18580028522964_2_alg».proof.Proof.Gen.Kernel.Points
import proofs.«118999_j18580028522964_2_alg».proof.Proof.Gen.Kernel.Frame
import proofs.«118999_j18580028522964_2_alg».proof.Proof.Gen.KernelIdeal
import proofs.«118999_j18580028522964_2_alg».proof.Proof.Gen.KernelIdeal.Skeleton
import proofs.«118999_j18580028522964_2_alg».proof.Proof.Gen.KernelIdeal.Launch
import proofs.«118999_j18580028522964_2_alg».proof.Proof.Gen.KernelIdeal.Points
import proofs.«118999_j18580028522964_2_alg».proof.Proof.Gen.KernelIdeal.Frame
import proofs.«118999_j18580028522964_2_alg».proof.Proof.Gen.ReferenceIdeal
import proofs.«118999_j18580028522964_2_alg».proof.Proof.Gen.Pre_finite_inputs
import proofs.«118999_j18580028522964_2_alg».proof.Proof.Gen.ReferenceIdeal.Run
import proofs.«118999_j18580028522964_2_alg».proof.Proof.Gen.ReferenceIdeal.Read
import proofs.«118999_j18580028522964_2_alg».proof.Proof.KernelRun
import proofs.«118999_j18580028522964_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no pipelined region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Run from memories that agree on the arguments, both programs end with the result buffer at ONE function of the
    kernel's launched arguments: the reference's result stage. The kernel's run reaches it through its two regions
    and three host stretches (`Cert.KernelIdeal.KernelValue.result_eq`); the reference's run reaches it by definition, at its own arguments,
    which are the kernel's. -/
theorem algebraic : Cert.algebraic_KernelIdeal_ReferenceIdeal := by
  intro m ρ m' ρ' _ hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.result_eq m ρ c), (h c).2⟩)
      (Cert.KernelIdeal.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
